-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x12288x3 : Shape := ⟨3, ![1, 12288, 3]⟩
abbrev S1x12288x16 : Shape := ⟨3, ![1, 12288, 16]⟩
abbrev S_ : Shape := ⟨0, ![]⟩

class Facts : Prop where
  bcast_S_S1x12288x3 : S_.BroadcastsInDim S1x12288x3 (![] : Fin 0 → Fin S1x12288x3.rank)
  reducesTo_S1x12288x3_S_d0_1_2 : S1x12288x3.ReducesTo [0, 1, 2] S_
  h_S_ : 0 < S_.numel
  bcast_S_S1x12288x16 : S_.BroadcastsInDim S1x12288x16 (![] : Fin 0 → Fin S1x12288x16.rank)
  reducesTo_S1x12288x16_S_d0_1_2 : S1x12288x16.ReducesTo [0, 1, 2] S_

variable [Facts]

def fn {F : FTy → Type} [FloatOps F] (main_arg0 : FVec F S1x12288x3 .f32) (main_arg1 : FVec F S1x12288x3 .f32) (main_arg2 : FVec F S1x12288x16 .f32) : IVec S_ 1 :=
  let main_v0 : FVec F S1x12288x3 .f32 := Host.absf main_arg0
  let main_cst : FVec F S_ .f32 := constant S_ .f32 0x7F800000#32
  let main_v1 : FVec F S1x12288x3 .f32 := broadcastInDim S1x12288x3 ![] bcast_S_S1x12288x3 main_cst
  let main_v2 : IVec S1x12288x3 1 := cmpf .olt main_v0 main_v1
  let main_c : IVec S_ 1 := constantI S_ 1 1#1
  let main_v3 : IVec S_ 1 := (fun x v => Host.reduce IntOp.andi x v reducesTo_S1x12288x3_S_d0_1_2 h_S_) main_v2 main_c
  let main_v4 : FVec F S1x12288x3 .f32 := Host.absf main_arg1
  let main_cst_0 : FVec F S_ .f32 := constant S_ .f32 0x7F800000#32
  let main_v5 : FVec F S1x12288x3 .f32 := broadcastInDim S1x12288x3 ![] bcast_S_S1x12288x3 main_cst_0
  let main_v6 : IVec S1x12288x3 1 := cmpf .olt main_v4 main_v5
  let main_c_1 : IVec S_ 1 := constantI S_ 1 1#1
  let main_v7 : IVec S_ 1 := (fun x v => Host.reduce IntOp.andi x v reducesTo_S1x12288x3_S_d0_1_2 h_S_) main_v6 main_c_1
  let main_v8 : IVec S_ 1 := andi main_v3 main_v7
  let main_v9 : FVec F S1x12288x16 .f32 := Host.absf main_arg2
  let main_cst_2 : FVec F S_ .f32 := constant S_ .f32 0x7F800000#32
  let main_v10 : FVec F S1x12288x16 .f32 := broadcastInDim S1x12288x16 ![] bcast_S_S1x12288x16 main_cst_2
  let main_v11 : IVec S1x12288x16 1 := cmpf .olt main_v9 main_v10
  let main_c_3 : IVec S_ 1 := constantI S_ 1 1#1
  let main_v12 : IVec S_ 1 := (fun x v => Host.reduce IntOp.andi x v reducesTo_S1x12288x16_S_d0_1_2 h_S_) main_v11 main_c_3
  let main_v13 : IVec S_ 1 := andi main_v8 main_v12
  main_v13
-- ==== Kernel.lean ====
abbrev S1x12288x3 : Shape := ⟨3, ![1, 12288, 3]⟩
abbrev S1x12288x16 : Shape := ⟨3, ![1, 12288, 16]⟩
abbrev S_ : Shape := ⟨0, ![]⟩
abbrev S1x12288 : Shape := ⟨2, ![1, 12288]⟩
abbrev S1x12288x1 : Shape := ⟨3, ![1, 12288, 1]⟩
abbrev S1x1x12288 : Shape := ⟨3, ![1, 1, 12288]⟩
abbrev S1x1024x3 : Shape := ⟨3, ![1, 1024, 3]⟩
abbrev S1x2048x3 : Shape := ⟨3, ![1, 2048, 3]⟩
abbrev S1x2048x16 : Shape := ⟨3, ![1, 2048, 16]⟩
abbrev S1x1024x1 : Shape := ⟨3, ![1, 1024, 1]⟩
abbrev S1x1x2048 : Shape := ⟨3, ![1, 1, 2048]⟩
abbrev S1x1024x16 : Shape := ⟨3, ![1, 1024, 16]⟩
abbrev S1x1024x2048 : Shape := ⟨3, ![1, 1024, 2048]⟩
abbrev S1x1024 : Shape := ⟨2, ![1, 1024]⟩

abbrev nBuf : Space → Nat
  | .hbm => 22
  | .vmem => 15
  | .smem => 0
  | _ => 0

abbrev bufTy : (tb : Table) → Fin (tcTables nBuf tb) → BufTy
  | .hbm, ⟨0, _⟩ => ⟨S1x12288x3, .f32⟩
  | .hbm, ⟨1, _⟩ => ⟨S1x12288x3, .f32⟩
  | .hbm, ⟨2, _⟩ => ⟨S1x12288x16, .f32⟩
  | .hbm, ⟨3, _⟩ => ⟨S_, .f32⟩
  | .hbm, ⟨4, _⟩ => ⟨S1x12288x3, .f32⟩
  | .hbm, ⟨5, _⟩ => ⟨S1x12288x3, .f32⟩
  | .hbm, ⟨6, _⟩ => ⟨S1x12288x3, .f32⟩
  | .hbm, ⟨7, _⟩ => ⟨S_, .f32⟩
  | .hbm, ⟨8, _⟩ => ⟨S1x12288, .f32⟩
  | .hbm, ⟨9, _⟩ => ⟨S1x12288x1, .f32⟩
  | .hbm, ⟨10, _⟩ => ⟨S_, .f32⟩
  | .hbm, ⟨11, _⟩ => ⟨S1x12288x1, .f32⟩
  | .hbm, ⟨12, _⟩ => ⟨S1x12288x1, .f32⟩
  | .hbm, ⟨13, _⟩ => ⟨S1x12288x3, .f32⟩
  | .hbm, ⟨14, _⟩ => ⟨S_, .f32⟩
  | .hbm, ⟨15, _⟩ => ⟨S1x12288, .f32⟩
  | .hbm, ⟨16, _⟩ => ⟨S1x12288x1, .f32⟩
  | .hbm, ⟨17, _⟩ => ⟨S_, .f32⟩
  | .hbm, ⟨18, _⟩ => ⟨S1x12288x1, .f32⟩
  | .hbm, ⟨19, _⟩ => ⟨S1x12288x1, .f32⟩
  | .hbm, ⟨20, _⟩ => ⟨S1x1x12288, .f32⟩
  | .hbm, ⟨21, _⟩ => ⟨S1x12288x16, .f32⟩
  | .local _ .vmem, ⟨0, _⟩ => ⟨S1x1024x3, .f32⟩
  | .local _ .vmem, ⟨1, _⟩ => ⟨S1x1024x3, .f32⟩
  | .local _ .vmem, ⟨2, _⟩ => ⟨S1x2048x3, .f32⟩
  | .local _ .vmem, ⟨3, _⟩ => ⟨S1x2048x3, .f32⟩
  | .local _ .vmem, ⟨4, _⟩ => ⟨S1x2048x16, .f32⟩
  | .local _ .vmem, ⟨5, _⟩ => ⟨S1x2048x16, .f32⟩
  | .local _ .vmem, ⟨6, _⟩ => ⟨S1x1024x1, .f32⟩
  | .local _ .vmem, ⟨7, _⟩ => ⟨S1x1024x1, .f32⟩
  | .local _ .vmem, ⟨8, _⟩ => ⟨S1x1x2048, .f32⟩
  | .local _ .vmem, ⟨9, _⟩ => ⟨S1x1x2048, .f32⟩
  | .local _ .vmem, ⟨10, _⟩ => ⟨S1x1024x16, .f32⟩
  | .local _ .vmem, ⟨11, _⟩ => ⟨S1x1024x16, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x16, .f32⟩
  | _, _ => ⟨S1x12288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 6], ![false, false]⟩

def k0_cond2 (i : grid0.Coords) : BitVec 1 :=
  let arg1 : BitVec 32 := BitVec.ofNat 32 (i 1).val
  let c5_i32 : BitVec 32 := 5#32
  let v47 : BitVec 1 := Scalar.cmpi .eq arg1 c5_i32
  let v48 : BitVec 32 := Scalar.extui v47
  let c0_i32_39 : BitVec 32 := 0#32
  let v49 : BitVec 1 := Scalar.cmpi .ne v48 c0_i32_39
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S1x12288x3 : S_.BroadcastsInDim S1x12288x3 (![] : Fin 0 → Fin S1x12288x3.rank)
  reducesTo_S1x12288x3_S1x12288_d2 : S1x12288x3.ReducesTo [2] S1x12288
  h_S_ : 0 < S_.numel
  bcast_S1x12288_S1x12288x1_0_1 : S1x12288.BroadcastsInDim S1x12288x1 (![0, 1] : Fin 2 → Fin S1x12288x1.rank)
  bcast_S_S1x12288x1 : S_.BroadcastsInDim S1x12288x1 (![] : Fin 0 → Fin S1x12288x1.rank)
  transposes_S1x12288x1_S1x1x12288_0_2_1 : S1x12288x1.Transposes [0, 2, 1] S1x1x12288
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1x1024x16 : S1x1024x16.ShapeCasts S1x1024x16
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1x1024x3 : S1x1024x3.ShapeCasts S1x1024x3
  inb_S1x2048x3_S1x2048x3_0_0_0 : ∀ a, (![0, 0, 0] : Fin 3 → Nat) a + S1x2048x3.size a ≤ S1x2048x3.size a
  h_S1x2048x3 : 0 < S1x2048x3.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  broadcasts_S1x1x2048_S1x1024x2048 : S1x1x2048.Broadcasts S1x1024x2048
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  inb_S1x2048x16_S1x2048x16_0_0_0 : ∀ a, (![0, 0, 0] : Fin 3 → Nat) a + S1x2048x16.size a ≤ S1x2048x16.size a
  h_S1x2048x16 : 0 < S1x2048x16.numel
  broadcasts_S1x1024x1_S1x1024x16 : S1x1024x1.Broadcasts S1x1024x16
  bitsLt_bf16_f32 : FTy.bits .bf16 < FTy.bits .f32
  dot_S1x1024x3_S1x2048x3_S1x1024x2048_2_2_1_1_0_0_wf : DotDims.WF S1x1024x3 S1x2048x3 S1x1024x2048 [2] [2] [1] [1] [0] [0]
  dot_S1x1024x2048_S1x2048x16_S1x1024x16_2_1_1_2_0_0_wf : DotDims.WF S1x1024x2048 S1x2048x16 S1x1024x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S1x12288x3.size a
  hwx0_0 : ∀ i : grid0.Coords, EltTy.bits .f32 = 32 ∨ (Rect.block (s := S1x12288x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S1x12288x3.size a
  hwx0_1 : ∀ i : grid0.Coords, EltTy.bits .f32 = 32 ∨ (Rect.block (s := S1x12288x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x16.size a ≤ S1x12288x16.size a
  hwx0_2 : ∀ i : grid0.Coords, EltTy.bits .f32 = 32 ∨ (Rect.block (s := S1x12288x16) S1x2048x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S1x12288x1.size a
  hwx0_3 : ∀ i : grid0.Coords, EltTy.bits .f32 = 32 ∨ (Rect.block (s := S1x12288x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S1x1x12288.size a
  hwx0_4 : ∀ i : grid0.Coords, EltTy.bits .f32 = 32 ∨ (Rect.block (s := S1x1x12288) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x16.size a ≤ S1x12288x16.size a
  hwx0_5 : ∀ i : grid0.Coords, EltTy.bits .f32 = 32 ∨ (Rect.block (s := S1x12288x16) S1x1024x16.size (cc0_transform_5 i) (hinb0_5 i)).WholeWords (EltTy.packing .f32)

variable [Facts₀]

def dot_S1x1024x3_S1x2048x3_S1x1024x2048_2_2_1_1_0_0 : DotDims S1x1024x3 S1x2048x3 S1x1024x2048 where
  lhsContracting := [2]
  rhsContracting := [2]
  lhsNonContracting := [1]
  rhsNonContracting := [1]
  lhsBatch := [0]
  rhsBatch := [0]
  wf := dot_S1x1024x3_S1x2048x3_S1x1024x2048_2_2_1_1_0_0_wf
def dot_S1x1024x2048_S1x2048x16_S1x1024x16_2_1_1_2_0_0 : DotDims S1x1024x2048 S1x2048x16 S1x1024x16 where
  lhsContracting := [2]
  rhsContracting := [1]
  lhsNonContracting := [1]
  rhsNonContracting := [2]
  lhsBatch := [0]
  rhsBatch := [0]
  wf := dot_S1x1024x2048_S1x2048x16_S1x1024x16_2_1_1_2_0_0_wf

abbrev win0_0 : Pipeline.Window sig grid0 :=
  Pipeline.Window.ofSpec (Memref.whole main_v1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x12288x3 : Shape := ⟨3, ![1, 12288, 3]⟩
abbrev S1x12288x16 : Shape := ⟨3, ![1, 12288, 16]⟩
abbrev S_ : Shape := ⟨0, ![]⟩
abbrev S1x12288 : Shape := ⟨2, ![1, 12288]⟩
abbrev S1x12288x12288 : Shape := ⟨3, ![1, 12288, 12288]⟩
abbrev S1x12288x1 : Shape := ⟨3, ![1, 12288, 1]⟩
abbrev S1x1x12288 : Shape := ⟨3, ![1, 1, 12288]⟩

abbrev nBuf : Space → Nat
  | .hbm => 38
  | .vmem => 0
  | .smem => 0
  | _ => 0

abbrev bufTy : (tb : Table) → Fin (tcTables nBuf tb) → BufTy
  | .hbm, ⟨0, _⟩ => ⟨S1x12288x3, .f32⟩
  | .hbm, ⟨1, _⟩ => ⟨S1x12288x3, .f32⟩
  | .hbm, ⟨2, _⟩ => ⟨S1x12288x16, .f32⟩
  | .hbm, ⟨3, _⟩ => ⟨S1x12288x3, .f32⟩
  | .hbm, ⟨4, _⟩ => ⟨S_, .f32⟩
  | .hbm, ⟨5, _⟩ => ⟨S1x12288, .f32⟩
  | .hbm, ⟨6, _⟩ => ⟨S1x12288x3, .f32⟩
  | .hbm, ⟨7, _⟩ => ⟨S_, .f32⟩
  | .hbm, ⟨8, _⟩ => ⟨S1x12288, .f32⟩
  | .hbm, ⟨9, _⟩ => ⟨S1x12288x12288, .f32⟩
  | .hbm, ⟨10, _⟩ => ⟨S1x12288x1, .f32⟩
  | .hbm, ⟨11, _⟩ => ⟨S1x1x12288, .f32⟩
  | .hbm, ⟨12, _⟩ => ⟨S1x12288x12288, .f32⟩
  | .hbm, ⟨13, _⟩ => ⟨S1x12288x12288, .f32⟩
  | .hbm, ⟨14, _⟩ => ⟨S1x12288x12288, .f32⟩
  | .hbm, ⟨15, _⟩ => ⟨S_, .f32⟩
  | .hbm, ⟨16, _⟩ => ⟨S1x12288x12288, .f32⟩
  | .hbm, ⟨17, _⟩ => ⟨S1x12288x12288, .f32⟩
  | .hbm, ⟨18, _⟩ => ⟨S1x12288x12288, .f32⟩
  | .hbm, ⟨19, _⟩ => ⟨S1x12288x12288, .f32⟩
  | .hbm, ⟨20, _⟩ => ⟨S_, .f32⟩
  | .hbm, ⟨21, _⟩ => ⟨S1x12288x12288, .f32⟩
  | .hbm, ⟨22, _⟩ => ⟨S1x12288x12288, .f32⟩
  | .hbm, ⟨23, _⟩ => ⟨S_, .f32⟩
  | .hbm, ⟨24, _⟩ => ⟨S1x12288, .f32⟩
  | .hbm, ⟨25, _⟩ => ⟨S_, .f32⟩
  | .hbm, ⟨26, _⟩ => ⟨S1x12288, .f32⟩
  | .hbm, ⟨27, _⟩ => ⟨S1x12288, .f32⟩
  | .hbm, ⟨28, _⟩ => ⟨S1x12288x1, .f32⟩
  | .hbm, ⟨29, _⟩ => ⟨S1x12288x12288, .f32⟩
  | .hbm, ⟨30, _⟩ => ⟨S1x12288x12288, .f32⟩
  | .hbm, ⟨31, _⟩ => ⟨S1x12288x12288, .f32⟩
  | .hbm, ⟨32, _⟩ => ⟨S_, .f32⟩
  | .hbm, ⟨33, _⟩ => ⟨S1x12288, .f32⟩
  | .hbm, ⟨34, _⟩ => ⟨S1x12288x1, .f32⟩
  | .hbm, ⟨35, _⟩ => ⟨S1x12288x12288, .f32⟩
  | .hbm, ⟨36, _⟩ => ⟨S1x12288x12288, .f32⟩
  | .hbm, ⟨37, _⟩ => ⟨S1x12288x16, .f32⟩
  | _, _ => ⟨S1x12288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S1x12288x3_S1x12288_d2 : S1x12288x3.ReducesTo [2] S1x12288
  h_S_ : 0 < S_.numel
  bcast_S1x12288_S1x12288x1_0_1 : S1x12288.BroadcastsInDim S1x12288x1 (![0, 1] : Fin 2 → Fin S1x12288x1.rank)
  bcast_S1x12288_S1x1x12288_0_2 : S1x12288.BroadcastsInDim S1x1x12288 (![0, 2] : Fin 2 → Fin S1x1x12288.rank)
  bcast_S1x12288x1_S1x12288x12288_0_1_2 : S1x12288x1.BroadcastsInDim S1x12288x12288 (![0, 1, 2] : Fin 3 → Fin S1x12288x12288.rank)
  bcast_S1x1x12288_S1x12288x12288_0_1_2 : S1x1x12288.BroadcastsInDim S1x12288x12288 (![0, 1, 2] : Fin 3 → Fin S1x12288x12288.rank)
  bcast_S_S1x12288x12288 : S_.BroadcastsInDim S1x12288x12288 (![] : Fin 0 → Fin S1x12288x12288.rank)
  reducesTo_S1x12288x12288_S1x12288_d2 : S1x12288x12288.ReducesTo [2] S1x12288
  bcast_S_S1x12288 : S_.BroadcastsInDim S1x12288 (![] : Fin 0 → Fin S1x12288.rank)
  dot_S1x12288x3_S1x12288x3_S1x12288x12288_2_2_1_1_0_0_wf : DotDims.WF S1x12288x3 S1x12288x3 S1x12288x12288 [2] [2] [1] [1] [0] [0]
  dot_S1x12288x12288_S1x12288x16_S1x12288x16_2_1_1_2_0_0_wf : DotDims.WF S1x12288x12288 S1x12288x16 S1x12288x16 [2] [1] [1] [2] [0] [0]

variable [Facts₀]

def dot_S1x12288x3_S1x12288x3_S1x12288x12288_2_2_1_1_0_0 : DotDims S1x12288x3 S1x12288x3 S1x12288x12288 where
  lhsContracting := [2]
  rhsContracting := [2]
  lhsNonContracting := [1]
  rhsNonContracting := [1]
  lhsBatch := [0]
  rhsBatch := [0]
  wf := dot_S1x12288x3_S1x12288x3_S1x12288x12288_2_2_1_1_0_0_wf
def dot_S1x12288x12288_S1x12288x16_S1x12288x16_2_1_1_2_0_0 : DotDims S1x12288x12288 S1x12288x16 S1x12288x16 where
  lhsContracting := [2]
  rhsContracting := [1]
  lhsNonContracting := [1]
  rhsNonContracting := [2]
  lhsBatch := [0]
  rhsBatch := [0]
  wf := dot_S1x12288x12288_S1x12288x16_S1x12288x16_2_1_1_2_0_0_wf

class Facts : Prop extends Facts₀ where

variable [Facts]
-- ==== Proof.Pieces.lean ====
/-
  What one visit of the kernel's body leaves in its three carried buffers and, at a row's last visit, in the output
  block, as pure functions of the blocks it loads.

  The body keeps, per query row of the tile, the running largest logit (first carried buffer), the running sum of
  weights (second) and the running weighted feature sums (third).  At the first visit of a tile (case A) it first
  resets them to -inf, 0 and 0, so the values it then reads back are those constants; at a later visit (cases B and C)
  it reads what the visit before left.  At the last visit (case C) it also stores the quotient of the new weighted sums
  by the new sum of weights into the output block.  Each statement below names the stored value by the body's own
  arithmetic terms: the new largest logit, the new sum of weights, the new weighted sums, the quotient.
-/
import proofs.«180915_j66322884985174_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offset of a whole-buffer rectangle. -/
theorem hz : (![0, 0, 0] : Fin 3 → Nat) = fun _ => 0 := funext fun a => by fin_cases a <;> rfl

/-- First visit: the new largest logits, over the reset value. -/
theorem m_first (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : cond0_0 i) (hc1 : ¬cond0_1 i) (x0 : Vec F S1x1024x3 .f32) (x1 : Vec F S1x2048x3 .f32) (x2 : Vec F S1x2048x16 .f32) (x3 : Vec F S1x1024x1 .f32) (x4 : Vec F S1x1x2048 .f32)  :
    sout0_A_0 c i arg2 harg2 arg3 harg3 arg4 harg4 arg5 harg5 arg6 harg6 arg7 harg7 arg8 harg8 arg9 harg9 arg10 harg10 hc0 hc1 x0 x1 x2 x3 x4 = k0_pay3 (k0_pay10 x0 x1 x4 x3 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  first
    | rw [View.canon_cons_unit_zero (S := S1x1024x1) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- First visit: the new sums of weights, over the reset values. -/
theorem l_first (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : cond0_0 i) (hc1 : ¬cond0_1 i) (x0 : Vec F S1x1024x3 .f32) (x1 : Vec F S1x2048x3 .f32) (x2 : Vec F S1x2048x16 .f32) (x3 : Vec F S1x1024x1 .f32) (x4 : Vec F S1x1x2048 .f32)  :
    sout0_A_1 c i arg2 harg2 arg3 harg3 arg4 harg4 arg5 harg5 arg6 harg6 arg7 harg7 arg8 harg8 arg9 harg9 arg10 harg10 hc0 hc1 x0 x1 x2 x3 x4 = k0_pay1 (k0_pay13 x0 x1 x4 x3 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  first
    | rw [View.canon_cons_unit_zero (S := S1x1024x1) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- First visit: the new weighted sums, over the reset values. -/
theorem acc_first (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : cond0_0 i) (hc1 : ¬cond0_1 i) (x0 : Vec F S1x1024x3 .f32) (x1 : Vec F S1x2048x3 .f32) (x2 : Vec F S1x2048x16 .f32) (x3 : Vec F S1x1024x1 .f32) (x4 : Vec F S1x1x2048 .f32)  :
    sout0_A_2 c i arg2 harg2 arg3 harg3 arg4 harg4 arg5 harg5 arg6 harg6 arg7 harg7 arg8 harg8 arg9 harg9 arg10 harg10 hc0 hc1 x0 x1 x2 x3 x4 = k0_pay2 (k0_pay11 x0 x1 x4 x3 k0_pay5 k0_pay5) (k0_pay12 x0 x1 x4 x3 k0_pay5) x2 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  first
    | rw [View.canon_cons_unit_zero (S := S1x1024x16) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- A middle visit: the new largest logits, over what the visit before left. -/
theorem m_middle (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : ¬cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay3 (k0_pay10 x0 x1 x4 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  first
    | rw [View.canon_cons_unit_zero (S := S1x1024x1) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- A middle visit: the new sums of weights, over what the visit before left. -/
theorem l_middle (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : ¬cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay1 (k0_pay13 x0 x1 x4 x3 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  first
    | rw [View.canon_cons_unit_zero (S := S1x1024x1) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- A middle visit: the new weighted sums, over what the visit before left. -/
theorem acc_middle (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : ¬cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay2 (k0_pay11 x0 x1 x4 x3 xs0 xs0) (k0_pay12 x0 x1 x4 x3 xs0) x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  first
    | rw [View.canon_cons_unit_zero (S := S1x1024x16) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- A last visit: the new largest logits, over what the visit before left. -/
theorem m_last (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay3 (k0_pay10 x0 x1 x4 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_cons_unit_zero (S := S1x1024x1) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- A last visit: the new sums of weights, over what the visit before left. -/
theorem l_last (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay1 (k0_pay13 x0 x1 x4 x3 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_cons_unit_zero (S := S1x1024x1) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- A last visit: the new weighted sums, over what the visit before left. -/
theorem acc_last (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay2 (k0_pay11 x0 x1 x4 x3 xs0 xs0) (k0_pay12 x0 x1 x4 x3 xs0) x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_cons_unit_zero (S := S1x1024x16) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

/-- The last visit: the output block is the quotient of the new weighted sums by the new sums of weights. -/
theorem out_last (c : Dev nD) (i : grid0.Coords) (arg2 : Memref sig .tc .vmem S1x1024x3 .f32) (harg2 : arg2.IsWhole) (arg3 : Memref sig .tc .vmem S1x2048x3 .f32) (harg3 : arg3.IsWhole) (arg4 : Memref sig .tc .vmem S1x2048x16 .f32) (harg4 : arg4.IsWhole) (arg5 : Memref sig .tc .vmem S1x1024x1 .f32) (harg5 : arg5.IsWhole) (arg6 : Memref sig .tc .vmem S1x1x2048 .f32) (harg6 : arg6.IsWhole) (arg7 : Memref sig .tc .vmem S1x1024x16 .f32) (harg7 : arg7.IsWhole) (arg8 : Memref sig .tc .vmem S1x1024x1 .f32) (harg8 : arg8.IsWhole) (arg9 : Memref sig .tc .vmem S1x1024x1 .f32) (harg9 : arg9.IsWhole) (arg10 : Memref sig .tc .vmem S1x1024x16 .f32) (harg10 : arg10.IsWhole) (hc0 : ¬cond0_0 i) (hc1 : cond0_1 i) (x0 : Vec F S1x1024x3 .f32) (x1 : Vec F S1x2048x3 .f32) (x2 : Vec F S1x2048x16 .f32) (x3 : Vec F S1x1024x1 .f32) (x4 : Vec F S1x1x2048 .f32) (xs0 : Vec F S1x1024x1 .f32) (xs1 : Vec F S1x1024x1 .f32) (xs2 : Vec F S1x1024x16 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay4 (k0_pay2 (k0_pay11 x0 x1 x4 x3 xs0 xs0) (k0_pay12 x0 x1 x4 x3 xs0) x2 xs2) (k0_pay1 (k0_pay13 x0 x1 x4 x3 xs0 xs0 xs1)) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  first
    | rw [View.canon_cons_unit_zero (S := S1x1024x16) hz]
    | rw [View.canon_unit_zero hz]
  simp only [View.readAt_eq_ld, harg2.read_unread, harg3.read_unread, harg4.read_unread, harg5.read_unread, harg6.read_unread,
    harg8.read_unread, harg9.read_unread, harg10.read_unread,
    View.readCov_unit_zero (S := S1x1024x1) _ hz, View.readCov_unit_zero (S := S1x1024x16) _ hz,
    View.ld_unit_zero (S := S1x1024x3) hz, View.ld_unit_zero (S := S1x2048x3) hz, View.ld_unit_zero (S := S1x2048x16) hz,
    View.ld_unit_zero (S := S1x1024x1) hz, View.ld_unit_zero (S := S1x1x2048) hz, View.ld_unit_zero (S := S1x1024x16) hz]

end Cert.KernelIdeal.Pieces

end
-- ==== Proof.Dots.lean ====
/-
  The body's two matrix products, read at coordinates at the extended reals.

  The scores product contracts the three coordinates of a query row of the `[1, 1024, 3]` block with those of a key row
  of the `[1, 2048, 3]` block: entry `(0, n, q)` is the sum over `d` of `l (0, n, d) * r (0, q, d)`.  The features product
  contracts the 2048 keys: entry `(0, n, d)` is the sum over `q` of `p (0, n, q) * v (0, q, d)`.  Both start from a zero
  accumulator, and the leading axis of size one is a batch axis.
-/
import proofs.«180915_j66322884985174_2_alg».proof.Proof.Gen.KernelIdeal
import Idealize.ShloMosaic.PureOps.Ideal.Laws
import Idealize.ShloMosaic.Lib.ValueIdx

noncomputable section

namespace Cert.KernelIdeal.Dots

open Cert.KernelIdeal Cert.KernelIdeal.Gen Idealize.ShloMosaic Idealize.ShloMosaic.ValueIdx

theorem sc_l_0 (i : S1x1024x2048.Idx) (q : dot_S1x1024x3_S1x2048x3_S1x1024x2048_2_2_1_1_0_0.contr.Idx) :
    (dot_S1x1024x3_S1x2048x3_S1x1024x2048_2_2_1_1_0_0.lhsIdx i q 0).val = (i 0).val := by
  unfold DotDims.lhsIdx
  rw [dif_pos (show (0 : Fin S1x1024x3.rank) ∈ dot_S1x1024x3_S1x2048x3_S1x1024x2048_2_2_1_1_0_0.lhsBatch by decide)]
  rfl
theorem sc_l_1 (i : S1x1024x2048.Idx) (q : dot_S1x1024x3_S1x2048x3_S1x1024x2048_2_2_1_1_0_0.contr.Idx) :
    (dot_S1x1024x3_S1x2048x3_S1x1024x2048_2_2_1_1_0_0.lhsIdx i q 1).val = (i 1).val := by
  unfold DotDims.lhsIdx
  rw [dif_neg (show ¬(1 : Fin S1x1024x3.rank) ∈ dot_S1x1024x3_S1x2048x3_S1x1024x2048_2_2_1_1_0_0.lhsBatch by decide), dif_pos (show (1 : Fin S1x1024x3.rank) ∈ dot_S1x1024x3_S1x2048x3_S1x1024x2048_2_2_1_1_0_0.lhsNonContracting by decide)]
  rfl
theorem sc_l_2 (i : S1x1024x2048.Idx) (q : dot_S1x1024x3_S1x2048x3_S1x1024x2048_2_2_1_1_0_0.contr.Idx) :
    (dot_S1x1024x3_S1x2048x3_S1x1024x2048_2_2_1_1_0_0.lhsIdx i q 2).val = (q ⟨0, by decide⟩).val :=
  dot_S1x1024x3_S1x2048x3_S1x1024x2048_2_2_1_1_0_0.lhsIdx_val_of_single rfl i q
theorem sc_r_0 (i : S1x1024x2048.Idx) (q : dot_S1x1024x3_S1x2048x3_S1x1024x2048_2_2_1_1_0_0.contr.Idx) :
    (dot_S1x1024x3_S1x2048x3_S1x1024x2048_2_2_1_1_0_0.rhsIdx i q 0).val = (i 0).val := by
  unfold DotDims.rhsIdx
  rw [dif_pos (show (0 : Fin S1x2048x3.rank) ∈ dot_S1x1024x3_S1x2048x3_S1x1024x2048_2_2_1_1_0_0.rhsBatch by decide)]
  rfl
theorem sc_r_1 (i : S1x1024x2048.Idx) (q : dot_S1x1024x3_S1x2048x3_S1x1024x2048_2_2_1_1_0_0.contr.Idx) :
    (dot_S1x1024x3_S1x2048x3_S1x1024x2048_2_2_1_1_0_0.rhsIdx i q 1).val = (i 2).val := by
  unfold DotDims.rhsIdx
  rw [dif_neg (show ¬(1 : Fin S1x2048x3.rank) ∈ dot_S1x1024x3_S1x2048x3_S1x1024x2048_2_2_1_1_0_0.rhsBatch by decide), dif_pos (show (1 : Fin S1x2048x3.rank) ∈ dot_S1x1024x3_S1x2048x3_S1x1024x2048_2_2_1_1_0_0.rhsNonContracting by decide)]
  rfl
theorem sc_r_2 (i : S1x1024x2048.Idx) (q : dot_S1x1024x3_S1x2048x3_S1x1024x2048_2_2_1_1_0_0.contr.Idx) :
    (dot_S1x1024x3_S1x2048x3_S1x1024x2048_2_2_1_1_0_0.rhsIdx i q 2).val = (q ⟨0, by decide⟩).val :=
  dot_S1x1024x3_S1x2048x3_S1x1024x2048_2_2_1_1_0_0.rhsIdx_val_of_single rfl i q

theorem ft_l_0 (i : S1x1024x16.Idx) (q : dot_S1x1024x2048_S1x2048x16_S1x1024x16_2_1_1_2_0_0.contr.Idx) :
    (dot_S1x1024x2048_S1x2048x16_S1x1024x16_2_1_1_2_0_0.lhsIdx i q 0).val = (i 0).val := by
  unfold DotDims.lhsIdx
  rw [dif_pos (show (0 : Fin S1x1024x2048.rank) ∈ dot_S1x1024x2048_S1x2048x16_S1x1024x16_2_1_1_2_0_0.lhsBatch by decide)]
  rfl
theorem ft_l_1 (i : S1x1024x16.Idx) (q : dot_S1x1024x2048_S1x2048x16_S1x1024x16_2_1_1_2_0_0.contr.Idx) :
    (dot_S1x1024x2048_S1x2048x16_S1x1024x16_2_1_1_2_0_0.lhsIdx i q 1).val = (i 1).val := by
  unfold DotDims.lhsIdx
  rw [dif_neg (show ¬(1 : Fin S1x1024x2048.rank) ∈ dot_S1x1024x2048_S1x2048x16_S1x1024x16_2_1_1_2_0_0.lhsBatch by decide), dif_pos (show (1 : Fin S1x1024x2048.rank) ∈ dot_S1x1024x2048_S1x2048x16_S1x1024x16_2_1_1_2_0_0.lhsNonContracting by decide)]
  rfl
theorem ft_l_2 (i : S1x1024x16.Idx) (q : dot_S1x1024x2048_S1x2048x16_S1x1024x16_2_1_1_2_0_0.contr.Idx) :
    (dot_S1x1024x2048_S1x2048x16_S1x1024x16_2_1_1_2_0_0.lhsIdx i q 2).val = (q ⟨0, by decide⟩).val :=
  dot_S1x1024x2048_S1x2048x16_S1x1024x16_2_1_1_2_0_0.lhsIdx_val_of_single rfl i q
theorem ft_r_0 (i : S1x1024x16.Idx) (q : dot_S1x1024x2048_S1x2048x16_S1x1024x16_2_1_1_2_0_0.contr.Idx) :
    (dot_S1x1024x2048_S1x2048x16_S1x1024x16_2_1_1_2_0_0.rhsIdx i q 0).val = (i 0).val := by
  unfold DotDims.rhsIdx
  rw [dif_pos (show (0 : Fin S1x2048x16.rank) ∈ dot_S1x1024x2048_S1x2048x16_S1x1024x16_2_1_1_2_0_0.rhsBatch by decide)]
  rfl
theorem ft_r_1 (i : S1x1024x16.Idx) (q : dot_S1x1024x2048_S1x2048x16_S1x1024x16_2_1_1_2_0_0.contr.Idx) :
    (dot_S1x1024x2048_S1x2048x16_S1x1024x16_2_1_1_2_0_0.rhsIdx i q 1).val = (q ⟨0, by decide⟩).val :=
  dot_S1x1024x2048_S1x2048x16_S1x1024x16_2_1_1_2_0_0.rhsIdx_val_of_single rfl i q
theorem ft_r_2 (i : S1x1024x16.Idx) (q : dot_S1x1024x2048_S1x2048x16_S1x1024x16_2_1_1_2_0_0.contr.Idx) :
    (dot_S1x1024x2048_S1x2048x16_S1x1024x16_2_1_1_2_0_0.rhsIdx i q 2).val = (i 2).val := by
  unfold DotDims.rhsIdx
  rw [dif_neg (show ¬(2 : Fin S1x2048x16.rank) ∈ dot_S1x1024x2048_S1x2048x16_S1x1024x16_2_1_1_2_0_0.rhsBatch by decide), dif_pos (show (2 : Fin S1x2048x16.rank) ∈ dot_S1x1024x2048_S1x2048x16_S1x1024x16_2_1_1_2_0_0.rhsNonContracting by decide)]
  rfl

/-- The scores product at `(0, n, q)`: the inner product of query row `n` and key row `q`. -/
theorem scores_apply (l : FVec Ideal S1x1024x3 .f32) (r : FVec Ideal S1x2048x3 .f32) (n : Fin 1024) (q : Fin 2048) :
    matmul dot_S1x1024x3_S1x2048x3_S1x1024x2048_2_2_1_1_0_0 (some .fp32) l r (constant S1x1024x2048 .f32 0x00000000#32) (ix3 (0 : Fin 1) n q)
      = ∑ d : Fin 3, l (ix3 (0 : Fin 1) n d) * r (ix3 (0 : Fin 1) q d) := by
  simp only [matmul]
  rw [Ideal.matmul_constant_zero_apply, ← Equiv.sum_comp (ValueIdx.contrEquiv1 dot_S1x1024x3_S1x2048x3_S1x1024x2048_2_2_1_1_0_0 3 rfl rfl).symm]
  refine Finset.sum_congr rfl fun k _ => ?_
  have hk := ValueIdx.contrEquiv1_symm_val dot_S1x1024x3_S1x2048x3_S1x1024x2048_2_2_1_1_0_0 3 rfl rfl k
  have el : dot_S1x1024x3_S1x2048x3_S1x1024x2048_2_2_1_1_0_0.lhsIdx (ix3 (0 : Fin 1) n q) ((ValueIdx.contrEquiv1 dot_S1x1024x3_S1x2048x3_S1x1024x2048_2_2_1_1_0_0 3 rfl rfl).symm k) = ix3 (0 : Fin 1) n k := funext fun a => Fin.ext (by
    match a with
    | ⟨0, _⟩ => exact sc_l_0 _ _
    | ⟨1, _⟩ => exact sc_l_1 _ _
    | ⟨2, _⟩ => exact (sc_l_2 _ _).trans hk)
  have er : dot_S1x1024x3_S1x2048x3_S1x1024x2048_2_2_1_1_0_0.rhsIdx (ix3 (0 : Fin 1) n q) ((ValueIdx.contrEquiv1 dot_S1x1024x3_S1x2048x3_S1x1024x2048_2_2_1_1_0_0 3 rfl rfl).symm k) = ix3 (0 : Fin 1) q k := funext fun a => Fin.ext (by
    match a with
    | ⟨0, _⟩ => exact sc_r_0 _ _
    | ⟨1, _⟩ => exact sc_r_1 _ _
    | ⟨2, _⟩ => exact (sc_r_2 _ _).trans hk)
  rw [el, er]

/-- The features product at `(0, n, d)`: the sum over the block's keys of weight times feature. -/
theorem feats_apply {φ₁ φ₂ : FTy} (p : FVec Ideal S1x1024x2048 φ₁) (v : FVec Ideal S1x2048x16 φ₂) (n : Fin 1024) (d : Fin 16) :
    matmul dot_S1x1024x2048_S1x2048x16_S1x1024x16_2_1_1_2_0_0 none p v (constant S1x1024x16 .f32 0x00000000#32) (ix3 (0 : Fin 1) n d)
      = ∑ q : Fin 2048, p (ix3 (0 : Fin 1) n q) * v (ix3 (0 : Fin 1) q d) := by
  simp only [matmul]
  rw [Ideal.matmul_constant_zero_apply, ← Equiv.sum_comp (ValueIdx.contrEquiv1 dot_S1x1024x2048_S1x2048x16_S1x1024x16_2_1_1_2_0_0 2048 rfl rfl).symm]
  refine Finset.sum_congr rfl fun k _ => ?_
  have hk := ValueIdx.contrEquiv1_symm_val dot_S1x1024x2048_S1x2048x16_S1x1024x16_2_1_1_2_0_0 2048 rfl rfl k
  have el : dot_S1x1024x2048_S1x2048x16_S1x1024x16_2_1_1_2_0_0.lhsIdx (ix3 (0 : Fin 1) n d) ((ValueIdx.contrEquiv1 dot_S1x1024x2048_S1x2048x16_S1x1024x16_2_1_1_2_0_0 2048 rfl rfl).symm k) = ix3 (0 : Fin 1) n k := funext fun a => Fin.ext (by
    match a with
    | ⟨0, _⟩ => exact ft_l_0 _ _
    | ⟨1, _⟩ => exact ft_l_1 _ _
    | ⟨2, _⟩ => exact (ft_l_2 _ _).trans hk)
  have er : dot_S1x1024x2048_S1x2048x16_S1x1024x16_2_1_1_2_0_0.rhsIdx (ix3 (0 : Fin 1) n d) ((ValueIdx.contrEquiv1 dot_S1x1024x2048_S1x2048x16_S1x1024x16_2_1_1_2_0_0 2048 rfl rfl).symm k) = ix3 (0 : Fin 1) k d := funext fun a => Fin.ext (by
    match a with
    | ⟨0, _⟩ => exact ft_r_0 _ _
    | ⟨1, _⟩ => exact (ft_r_1 _ _).trans hk
    | ⟨2, _⟩ => exact ft_r_2 _ _)
  rw [el, er]

end Cert.KernelIdeal.Dots

end
-- ==== Proof.LibOuter.lean ====
/-
  Layout operations of a broadcast outer product, read at explicit coordinates.

  An `[a, b]` array given a trailing unit axis, `[a, b, 1]`, keeps entry `(i, j)` at `(i, j, 0)`: the two row-major
  positions are the same number. That column block broadcast to `[a, b, c]` repeats entry `(i, j)` along the last
  axis; a `[1, b, c]` array broadcast to `[a, b, c]` repeats its one slab along the first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.LibLastAxis.lean ====
/-
  The sum over the last axis of a rank-3 array, read at coordinates.

  A kernel's reduction by addition over axis 2 of an `[a, b, n]` array, started from the additive neutral word, is at the
  extended reals and at `(p, q)` the sum over `k` of the array at `(p, q, k)`.
-/
import Idealize.ShloMosaic.PureOps.Ideal.Laws
import Idealize.ShloMosaic.Lib.ValueIdx

noncomputable section

namespace Cert.LibLastAxis

open Idealize.ShloMosaic Idealize.ShloMosaic.ValueIdx
open scoped BigOperators

variable {a b n : ℕ}

/-- The sum over the last axis of an `[a, b, n]` array at `(p, q)`: the sum over `k` of the array at `(p, q, k)`. -/
theorem multiReduction_add_last_apply {φ : FTy} (src : FVec Ideal ⟨3, ![a, b, n]⟩ φ) (acc : BitVec φ.bits)
    (h : (⟨3, ![a, b, n]⟩ : Shape).Reduces [(2 : Fin 3)] ⟨2, ![a, b]⟩) (hφ : FKind.Formats φ) (hacc : acc = FKind.add.neutral φ hφ)
    (p : Fin a) (q : Fin b) :
    multiReduction .add [(2 : Fin 3)] ⟨2, ![a, b]⟩ src acc h hφ hacc (ix2 p q) = ∑ k : Fin n, src (ix3 p q k) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibLastAxis

end
-- ==== Proof.LibLastMax.lean ====
/-
  The largest entry along the last axis of a rank-3 array, read at coordinates.

  A kernel's reduction by maximum over axis 2 of an `[a, b, n]` array, started from the accumulator's value, is at
  the extended reals and at `(p, q)` the fold of `max` from that value over the entries `(p, q, k)`, `k < n`.
-/
import Idealize.ShloMosaic.PureOps.Ideal.Laws
import Idealize.ShloMosaic.Lib.ValueIdx

noncomputable section

namespace Cert.LibLastMax

open Idealize.ShloMosaic Idealize.ShloMosaic.ValueIdx

variable {a b n : ℕ}

/-- The maximum over the last axis of an `[a, b, n]` array at `(p, q)`: the fold of `max`, from the accumulator's
    value, over `k` of the array at `(p, q, k)`. -/
theorem multiReduction_max_last_apply {φ : FTy} (src : FVec Ideal ⟨3, ![a, b, n]⟩ φ) (acc : BitVec φ.bits)
    (h : (⟨3, ![a, b, n]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin n)).fold max (FloatOps.ofBits φ acc) (fun k => src (ix3 p q k)) := by
  rw [Ideal.multiReduction_maximumf_single]
  refine congrArg (fun f => (Finset.univ : Finset (Fin n)).fold max (FloatOps.ofBits φ acc) f) (funext fun k => ?_)
  refine congrArg src (funext fun c => Fin.ext ?_)
  match c with
  | ⟨0, _⟩ => rfl
  | ⟨1, _⟩ => rfl
  | ⟨2, _⟩ => rfl

end Cert.LibLastMax

end
-- ==== Proof.Row.lean ====
/-
  One query row of the blockwise computation, on the extended reals, exactly as the kernel's body computes it.

  The 12288 keys come in 6 blocks of 2048.  A visit of a block takes the row's running state — the running largest
  logit `m`, the running sum of weights `l`, and the running weighted sums `acc d` (both relative to `m`) — and the
  block's data, and returns the new state: with s q = (sum_d xs d * yb q d) + byb q the block's scores and bx the row's
  own bias, the new largest logit is max m (bx + max_q s q), the old sums are rescaled by a = exp (m - new m), and the
  block's weights exp (s q + (bx - new m)) are added in.  The state before the first visit is (-inf, 0, 0).  After the
  sixth visit the result is acc d / l.
-/
import Idealize.ShloMosaic.PureOps.Ideal

noncomputable section

namespace Cert.GaussConv.Row

open Idealize.ShloMosaic

/-- The running state of one query row. -/
structure St where
  m : EReal
  l : EReal
  acc : Fin 16 → EReal

/-- The state before the first visit. -/
def init : St := ⟨⊥, 0, fun _ => 0⟩

/-- A block's scores for the row: the scaled inner products plus the keys' biases. -/
def score (xs : Fin 3 → EReal) (yb : Fin 2048 → Fin 3 → EReal) (byb : Fin 2048 → EReal) (q : Fin 2048) : EReal :=
  (∑ d : Fin 3, xs d * yb q d) + byb q

/-- One visit of a block. -/
def visit (xs : Fin 3 → EReal) (yb : Fin 2048 → Fin 3 → EReal) (byb : Fin 2048 → EReal) (bx : EReal)
    (vb : Fin 2048 → Fin 16 → EReal) (st : St) : St :=
  let s := score xs yb byb
  let rm := (Finset.univ : Finset (Fin 2048)).fold max (⊥ : EReal) s
  let mnew := max st.m (bx + rm)
  let a := Ideal.exp (st.m - mnew)
  let p := fun q => Ideal.exp (s q + (bx - mnew))
  ⟨mnew, a * st.l + ∑ q : Fin 2048, p q, fun d => a * st.acc d + ∑ q : Fin 2048, p q * vb q d⟩

/-- Key `q` of block `k` among all keys. -/
def key (k : Fin 6) (q : Fin 2048) : Fin 12288 := ⟨2048 * k.val + q.val, by have := k.isLt; have := q.isLt; omega⟩

/-- The visit of block `k` of whole arrays: `X` the scaled queries, `Y` the keys, `BY` the keys' biases, `BX` the
    queries' biases, `V` the keys' features. -/
def visitBlock (X Y : Fin 12288 → Fin 3 → EReal) (BX BY : Fin 12288 → EReal) (V : Fin 12288 → Fin 16 → EReal)
    (r : Fin 12288) (k : Fin 6) (st : St) : St :=
  visit (X r) (fun q => Y (key k q)) (fun q => BY (key k q)) (BX r) (fun q => V (key k q)) st

/-- The row's state after the visits of blocks 0, …, k (for k ≥ 6: after all six). -/
def run (X Y : Fin 12288 → Fin 3 → EReal) (BX BY : Fin 12288 → EReal) (V : Fin 12288 → Fin 16 → EReal)
    (r : Fin 12288) : ℕ → St
  | 0 => visitBlock X Y BX BY V r 0 init
  | k + 1 => if h : k + 1 < 6 then visitBlock X Y BX BY V r ⟨k + 1, h⟩ (run X Y BX BY V r k) else run X Y BX BY V r k

end Cert.GaussConv.Row

end
-- ==== Proof.VisitAt.lean ====
/-
  The values one visit stores, read at an index at the extended reals: they are the fields of `Row.visit` for the
  query row the index names.

  Entry (0, n, q) of the score tile is the row's score against key q of the block; the row maximum, the new largest
  logit, the rescaling factor, the block's weights, the new sum of weights and the new weighted sums are, at row n,
  exactly `Row.visit`'s terms over the row's previous state; the output block's entry (0, n, d) is the quotient of
  the weighted sum by the sum of weights.
-/
import proofs.«180915_j66322884985174_2_alg».proof.Proof.Gen.KernelIdeal.Skeleton
import proofs.«180915_j66322884985174_2_alg».proof.Proof.Dots
import proofs.«180915_j66322884985174_2_alg».proof.Proof.LibOuter
import proofs.«180915_j66322884985174_2_alg».proof.Proof.LibMid
import proofs.«180915_j66322884985174_2_alg».proof.Proof.LibLastAxis
import proofs.«180915_j66322884985174_2_alg».proof.Proof.LibLastMax
import proofs.«180915_j66322884985174_2_alg».proof.Proof.Row
import Idealize.ShloMosaic.Lib.Pipeline.Value
import Idealize.ShloMosaic.Lib.ValueIdx

noncomputable section

namespace Cert.KernelIdeal.VisitAt

open Cert.KernelIdeal Cert.KernelIdeal.Gen Idealize.ShloMosaic Idealize.ShloMosaic.ValueIdx Cert.GaussConv

/-- The word 0xFF800000 is the bottom extended real. -/
theorem neg_inf : Ideal.ofBits .f32 0xFF800000#32 = (⊥ : EReal) := by
  simp [Ideal.ofBits, Ideal.ieee]

/-- The exponential of a vector at an index. -/
theorem exp_apply {s : Shape} {φ : FTy} (a : FVec Ideal s φ) (i : s.Idx) : exp a i = Ideal.exp (a i) := rfl

/-- Query row `n` of the tile's scaled-query block. -/
def queryRow (x0 : Vec Ideal S1x1024x3 .f32) (n : Fin 1024) : Fin 3 → EReal := fun d => x0 (ix3 (0 : Fin 1) n d)
/-- The key rows of the key block. -/
def keyRows (x1 : Vec Ideal S1x2048x3 .f32) : Fin 2048 → Fin 3 → EReal := fun q d => x1 (ix3 (0 : Fin 1) q d)
/-- The keys' biases of the bias block. -/
def keyBias (x4 : Vec Ideal S1x1x2048 .f32) : Fin 2048 → EReal := fun q => x4 (ix3 (0 : Fin 1) (0 : Fin 1) q)
/-- The keys' features of the feature block. -/
def keyFeats (x2 : Vec Ideal S1x2048x16 .f32) : Fin 2048 → Fin 16 → EReal := fun q d => x2 (ix3 (0 : Fin 1) q d)
/-- Row `n` of the three carried buffers, as a row state. -/
def stateAt (mp lp : Vec Ideal S1x1024x1 .f32) (ap : Vec Ideal S1x1024x16 .f32) (n : Fin 1024) : Row.St :=
  ⟨mp (ix3 (0 : Fin 1) n (0 : Fin 1)), lp (ix3 (0 : Fin 1) n (0 : Fin 1)), fun d => ap (ix3 (0 : Fin 1) n d)⟩
/-- The visit of the blocks' data for row `n`, over the carried buffers' row `n`. -/
def visitAt (x0 : Vec Ideal S1x1024x3 .f32) (x1 : Vec Ideal S1x2048x3 .f32) (x2 : Vec Ideal S1x2048x16 .f32)
    (x3 : Vec Ideal S1x1024x1 .f32) (x4 : Vec Ideal S1x1x2048 .f32) (mp lp : Vec Ideal S1x1024x1 .f32)
    (ap : Vec Ideal S1x1024x16 .f32) (n : Fin 1024) : Row.St :=
  Row.visit (queryRow x0 n) (keyRows x1) (keyBias x4) (x3 (ix3 (0 : Fin 1) n (0 : Fin 1))) (keyFeats x2) (stateAt mp lp ap n)

variable (x0 : Vec Ideal S1x1024x3 .f32) (x1 : Vec Ideal S1x2048x3 .f32) (x2 : Vec Ideal S1x2048x16 .f32)
  (x3 : Vec Ideal S1x1024x1 .f32) (x4 : Vec Ideal S1x1x2048 .f32) (mp lp : Vec Ideal S1x1024x1 .f32)
  (ap : Vec Ideal S1x1024x16 .f32)

/-- The score tile at (0, n, q). -/
theorem score_at (n : Fin 1024) (q : Fin 2048) :
    k0_pay8 x0 x1 x4 (ix3 (0 : Fin 1) n q) = Row.score (queryRow x0 n) (keyRows x1) (keyBias x4) q := by
  unfold k0_pay8
  rw [addf_apply, shapeCast_self, shapeCast_self, Dots.scores_apply, LibMid.broadcastTo_a1b_anb_apply]
  rfl

/-- The new largest logit of row n. -/
theorem mnew_at (n : Fin 1024) :
    k0_pay10 x0 x1 x4 x3 mp (ix3 (0 : Fin 1) n (0 : Fin 1))
      = max (mp (ix3 (0 : Fin 1) n (0 : Fin 1))) (x3 (ix3 (0 : Fin 1) n (0 : Fin 1))
          + (Finset.univ : Finset (Fin 2048)).fold max (⊥ : EReal) (Row.score (queryRow x0 n) (keyRows x1) (keyBias x4))) := by
  unfold k0_pay10 k0_pay9
  dsimp only
  rw [maximumf_apply, addf_apply, shapeCast_self, shapeCast_ab_ab1_apply]
  refine congrArg (fun z => max (mp (ix3 (0 : Fin 1) n (0 : Fin 1))) (x3 (ix3 (0 : Fin 1) n (0 : Fin 1)) + z)) ?_
  refine (LibLastMax.multiReduction_max_last_apply (k0_pay8 x0 x1 x4) 0xFF800000#32 reduces_S1x1024x2048_S1x1024 _ _
    (0 : Fin 1) n).trans ?_
  have e : (fun k : Fin 2048 => k0_pay8 x0 x1 x4 (ix3 (0 : Fin 1) n k)) = Row.score (queryRow x0 n) (keyRows x1) (keyBias x4) :=
    funext fun k => score_at x0 x1 x4 n k
  rw [e]
  show Finset.fold max (Ideal.ofBits .f32 0xFF800000#32) _ _ = _
  rw [neg_inf]

/-- The rescaling factor of row n: the exponential of the old largest logit less the new one. -/
theorem scale_at (mq : Vec Ideal S1x1024x1 .f32) (n : Fin 1024) :
    k0_pay11 x0 x1 x4 x3 mp mq (ix3 (0 : Fin 1) n (0 : Fin 1))
      = Ideal.exp (mq (ix3 (0 : Fin 1) n (0 : Fin 1)) - k0_pay10 x0 x1 x4 x3 mp (ix3 (0 : Fin 1) n (0 : Fin 1))) := by
  unfold k0_pay11
  rw [exp_apply, subf_apply]

/-- The block's weight of key q for row n: the exponential of the score plus the row's bias less the new largest logit. -/
theorem weight_at (n : Fin 1024) (q : Fin 2048) :
    k0_pay12 x0 x1 x4 x3 mp (ix3 (0 : Fin 1) n q)
      = Ideal.exp (k0_pay8 x0 x1 x4 (ix3 (0 : Fin 1) n q)
          + (x3 (ix3 (0 : Fin 1) n (0 : Fin 1)) - k0_pay10 x0 x1 x4 x3 mp (ix3 (0 : Fin 1) n (0 : Fin 1)))) := by
  unfold k0_pay12 k0_pay9
  rw [exp_apply, addf_apply, broadcastTo_ab1_abc_apply, subf_apply, shapeCast_self]

/-- The stored largest logits at row n: the visit's new largest logit. -/
theorem m_visit (p : Fin 1) (n : Fin 1024) (u : Fin 1) :
    k0_pay3 (k0_pay10 x0 x1 x4 x3 mp) (ix3 p n u) = (visitAt x0 x1 x2 x3 x4 mp lp ap n).m := by
  obtain rfl : p = 0 := Subsingleton.elim _ _
  obtain rfl : u = 0 := Subsingleton.elim _ _
  unfold k0_pay3
  rw [shapeCast_self, mnew_at]
  rfl

/-- The stored sums of weights at row n: the visit's new sum of weights. -/
theorem l_visit (p : Fin 1) (n : Fin 1024) (u : Fin 1) :
    k0_pay1 (k0_pay13 x0 x1 x4 x3 mp mp lp) (ix3 p n u) = (visitAt x0 x1 x2 x3 x4 mp lp ap n).l := by
  obtain rfl : p = 0 := Subsingleton.elim _ _
  obtain rfl : u = 0 := Subsingleton.elim _ _
  unfold k0_pay1 k0_pay13
  rw [shapeCast_self, addf_apply, mulf_apply, shapeCast_ab_ab1_apply]
  unfold visitAt Row.visit stateAt
  dsimp only
  refine congrArg₂ (fun a b : EReal => a + b) ?_ ?_
  · rw [scale_at, mnew_at]
  · refine (LibLastAxis.multiReduction_add_last_apply (k0_pay12 x0 x1 x4 x3 mp) 0x00000000#32 reduces_S1x1024x2048_S1x1024 _ _
      (0 : Fin 1) n).trans ?_
    refine Finset.sum_congr rfl fun q _ => ?_
    rw [weight_at, score_at, mnew_at]

/-- The stored weighted sums at (row n, feature d): the visit's new weighted sum. -/
theorem acc_visit (p : Fin 1) (n : Fin 1024) (d : Fin 16) :
    k0_pay2 (k0_pay11 x0 x1 x4 x3 mp mp) (k0_pay12 x0 x1 x4 x3 mp) x2 ap (ix3 p n d)
      = (visitAt x0 x1 x2 x3 x4 mp lp ap n).acc d := by
  obtain rfl : p = 0 := Subsingleton.elim _ _
  unfold k0_pay2
  rw [shapeCast_self, addf_apply, mulf_apply, broadcastTo_ab1_abc_apply, Dots.feats_apply]
  unfold visitAt Row.visit stateAt
  dsimp only
  refine congrArg₂ (fun a b : EReal => a + b) ?_ ?_
  · rw [scale_at, mnew_at]
  · refine Finset.sum_congr rfl fun q _ => ?_
    rw [truncf_apply, truncf_apply, weight_at, score_at, mnew_at]
    rfl

/-- The output block at (row n, feature d): the weighted sum divided by the sum of weights. -/
theorem quot_at (A : Vec Ideal S1x1024x16 .f32) (Lv : Vec Ideal S1x1024x1 .f32) (p : Fin 1) (n : Fin 1024) (d : Fin 16) :
    k0_pay4 A Lv (ix3 p n d) = Ideal.div (A (ix3 p n d)) (Lv (ix3 p n (0 : Fin 1))) := by
  unfold k0_pay4
  rw [divf_apply, broadcastTo_ab1_abc_apply]

end Cert.KernelIdeal.VisitAt

end
-- ==== Proof.Blocks.lean ====
/-
  Where the windows' blocks sit in their arrays.

  The grid has 12 x 6 points; point t is tile t / 6 of the queries at visit t % 6.  The scaled-query, query-bias and
  output windows move with the tile (rows 1024 * (t / 6) + n); the key, key-feature and key-bias windows move with the
  visit (keys 2048 * (t % 6) + q).  Each statement reads an input block at a coordinate as the window's array at the
  corresponding array index.
-/
import proofs.«180915_j66322884985174_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided over the grid. -/
theorem idx_facts : ∀ t : Fin cfg0.N,
    win0_0.index t (0 : Fin 3) = 0 ∧ win0_0.index t (1 : Fin 3) = t.val / 6 ∧ win0_0.index t (2 : Fin 3) = 0
    ∧ win0_1.index t (0 : Fin 3) = 0 ∧ win0_1.index t (1 : Fin 3) = t.val % 6 ∧ win0_1.index t (2 : Fin 3) = 0
    ∧ win0_2.index t (0 : Fin 3) = 0 ∧ win0_2.index t (1 : Fin 3) = t.val % 6 ∧ win0_2.index t (2 : Fin 3) = 0
    ∧ win0_3.index t (0 : Fin 3) = 0 ∧ win0_3.index t (1 : Fin 3) = t.val / 6 ∧ win0_3.index t (2 : Fin 3) = 0
    ∧ win0_4.index t (0 : Fin 3) = 0 ∧ win0_4.index t (1 : Fin 3) = 0 ∧ win0_4.index t (2 : Fin 3) = t.val % 6
    ∧ win0_5.index t (0 : Fin 3) = 0 ∧ win0_5.index t (1 : Fin 3) = t.val / 6 ∧ win0_5.index t (2 : Fin 3) = 0 :=
  (by decide +kernel : ∀ t : Fin grid0.N, _)

/-- Row n of tile i among all query rows. -/
def row (i : ℕ) (hi : i < 12) (n : Fin 1024) : Fin 12288 := ⟨1024 * i + n.val, by have := n.isLt; omega⟩
/-- Key q of visit k among all keys. -/
def keyOf (k : ℕ) (hk : k < 6) (q : Fin 2048) : Fin 12288 := ⟨2048 * k + q.val, by have := q.isLt; omega⟩

theorem tile_lt (t : Fin cfg0.N) : t.val / 6 < 12 := by
  have := lt_of_lt_of_eq t.isLt (show cfg0.N = 72 from N_0); omega
theorem visit_lt (t : Fin cfg0.N) : t.val % 6 < 6 := Nat.mod_lt _ (by decide)

/-- The scaled-query block at (0, n, d): the array's row 1024 * (t / 6) + n. -/
theorem queries_at (c : Dev nD) (t : Fin cfg0.N) (n : Fin 1024) (d : Fin 3) :
    iblk m c 0 t (ix3 (0 : Fin 1) n d) = V m c main_v1 (ix3 (0 : Fin 1) (row (t.val / 6) (tile_lt t) n) d) := by
  show V m c main_v1 (((cfg0.win 0).blk t).view.emb (ix3 (0 : Fin 1) n d)) = _
  refine congrArg (V m c main_v1) (funext fun a => Fin.ext ?_)
  have h := idx_facts t
  match a with
  | ⟨0, _⟩ => show win0_0.index t (0 : Fin 3) * 1 + 1 * 0 = 0; omega
  | ⟨1, _⟩ => show win0_0.index t (1 : Fin 3) * 1024 + 1 * n.val = 1024 * (t.val / 6) + n.val; omega
  | ⟨2, _⟩ => show win0_0.index t (2 : Fin 3) * 3 + 1 * d.val = d.val; omega

/-- The key block at (0, q, d): the array's key 2048 * (t % 6) + q. -/
theorem keys_at (c : Dev nD) (t : Fin cfg0.N) (q : Fin 2048) (d : Fin 3) :
    iblk m c 1 t (ix3 (0 : Fin 1) q d) = V m c main_arg1 (ix3 (0 : Fin 1) (keyOf (t.val % 6) (visit_lt t) q) d) := by
  show V m c main_arg1 (((cfg0.win 1).blk t).view.emb (ix3 (0 : Fin 1) q d)) = _
  refine congrArg (V m c main_arg1) (funext fun a => Fin.ext ?_)
  have h := idx_facts t
  match a with
  | ⟨0, _⟩ => show win0_1.index t (0 : Fin 3) * 1 + 1 * 0 = 0; omega
  | ⟨1, _⟩ => show win0_1.index t (1 : Fin 3) * 2048 + 1 * q.val = 2048 * (t.val % 6) + q.val; omega
  | ⟨2, _⟩ => show win0_1.index t (2 : Fin 3) * 3 + 1 * d.val = d.val; omega

/-- The key-feature block at (0, q, d): the array's key 2048 * (t % 6) + q. -/
theorem feats_at (c : Dev nD) (t : Fin cfg0.N) (q : Fin 2048) (d : Fin 16) :
    iblk m c 2 t (ix3 (0 : Fin 1) q d) = V m c main_arg2 (ix3 (0 : Fin 1) (keyOf (t.val % 6) (visit_lt t) q) d) := by
  show V m c main_arg2 (((cfg0.win 2).blk t).view.emb (ix3 (0 : Fin 1) q d)) = _
  refine congrArg (V m c main_arg2) (funext fun a => Fin.ext ?_)
  have h := idx_facts t
  match a with
  | ⟨0, _⟩ => show win0_2.index t (0 : Fin 3) * 1 + 1 * 0 = 0; omega
  | ⟨1, _⟩ => show win0_2.index t (1 : Fin 3) * 2048 + 1 * q.val = 2048 * (t.val % 6) + q.val; omega
  | ⟨2, _⟩ => show win0_2.index t (2 : Fin 3) * 16 + 1 * d.val = d.val; omega

/-- The query-bias block at (0, n, 0): the array's row 1024 * (t / 6) + n. -/
theorem qbias_at (c : Dev nD) (t : Fin cfg0.N) (n : Fin 1024) :
    iblk m c 3 t (ix3 (0 : Fin 1) n (0 : Fin 1)) = V m c main_v6 (ix3 (0 : Fin 1) (row (t.val / 6) (tile_lt t) n) (0 : Fin 1)) := by
  show V m c main_v6 (((cfg0.win 3).blk t).view.emb (ix3 (0 : Fin 1) n (0 : Fin 1))) = _
  refine congrArg (V m c main_v6) (funext fun a => Fin.ext ?_)
  have h := idx_facts t
  match a with
  | ⟨0, _⟩ => show win0_3.index t (0 : Fin 3) * 1 + 1 * 0 = 0; omega
  | ⟨1, _⟩ => show win0_3.index t (1 : Fin 3) * 1024 + 1 * n.val = 1024 * (t.val / 6) + n.val; omega
  | ⟨2, _⟩ => show win0_3.index t (2 : Fin 3) * 1 + 1 * 0 = 0; omega

/-- The key-bias block at (0, 0, q): the array's key 2048 * (t % 6) + q. -/
theorem kbias_at (c : Dev nD) (t : Fin cfg0.N) (q : Fin 2048) :
    iblk m c 4 t (ix3 (0 : Fin 1) (0 : Fin 1) q) = V m c main_v12 (ix3 (0 : Fin 1) (0 : Fin 1) (keyOf (t.val % 6) (visit_lt t) q)) := by
  show V m c main_v12 (((cfg0.win 4).blk t).view.emb (ix3 (0 : Fin 1) (0 : Fin 1) q)) = _
  refine congrArg (V m c main_v12) (funext fun a => Fin.ext ?_)
  have h := idx_facts t
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 2048 + 1 * q.val = 2048 * (t.val % 6) + q.val; omega

end Cert.KernelIdeal.Blocks

end
-- ==== Proof.Invariant.lean ====
/-
  The carried buffers follow the row run.

  Point t of the 12 x 6 grid is the visit t % 6 of tile t / 6.  After it, row n of the three carried buffers is the state
  of query row 1024 * (t / 6) + n after the visits of key blocks 0, …, t % 6: at a tile's first visit the body reads back
  the values it has just reset, which are the initial state; at a later visit it reads what the visit before left, which
  is the state after the earlier blocks by induction; and the blocks the windows stage at the point are that row's and that
  visit's stretches of the arrays the region finds.
-/
import proofs.«180915_j66322884985174_2_alg».proof.Proof.Gen.KernelIdeal.Frame
import proofs.«180915_j66322884985174_2_alg».proof.Proof.Pieces
import proofs.«180915_j66322884985174_2_alg».proof.Proof.VisitAt
import proofs.«180915_j66322884985174_2_alg».proof.Proof.Blocks
import proofs.«180915_j66322884985174_2_alg».proof.Proof.Row

noncomputable section

namespace Cert.GaussConv.Row

/-- Two row states with equal fields are equal. -/
theorem St.ext' (s t : St) (hm : s.m = t.m) (hl : s.l = t.l) (ha : ∀ d, s.acc d = t.acc d) : s = t := by
  cases s; cases t
  simp only at hm hl ha
  subst hm hl
  congr
  exact funext ha

end Cert.GaussConv.Row

namespace Cert.KernelIdeal.Invariant

open Cert.KernelIdeal Cert.KernelIdeal.Gen Idealize.ShloMosaic Idealize.ShloMosaic.TcCoe Idealize.SL.Sem
open Idealize.ShloMosaic.ValueIdx Cert.GaussConv Cert.KernelIdeal.VisitAt Cert.KernelIdeal.Blocks

variable (m : (ℓ : Loc nD τ sig) → Buf (Elt Ideal) ℓ)

/-- The arrays the region finds, as matrices: scaled queries, keys, query biases, key biases, key features. -/
def X (c : Dev nD) : Fin 12288 → Fin 3 → EReal := fun r d => V m c main_v1 (ix3 (0 : Fin 1) r d)
def Y (c : Dev nD) : Fin 12288 → Fin 3 → EReal := fun j d => V m c main_arg1 (ix3 (0 : Fin 1) j d)
def BX (c : Dev nD) : Fin 12288 → EReal := fun r => V m c main_v6 (ix3 (0 : Fin 1) r (0 : Fin 1))
def BY (c : Dev nD) : Fin 12288 → EReal := fun j => V m c main_v12 (ix3 (0 : Fin 1) (0 : Fin 1) j)
def Vf (c : Dev nD) : Fin 12288 → Fin 16 → EReal := fun j d => V m c main_arg2 (ix3 (0 : Fin 1) j d)

/-- Row n of what a visit stores in the three carried buffers is the visit of row n's previous state. -/
theorem state_visit (x0 : Vec Ideal S1x1024x3 .f32) (x1 : Vec Ideal S1x2048x3 .f32) (x2 : Vec Ideal S1x2048x16 .f32)
    (x3 : Vec Ideal S1x1024x1 .f32) (x4 : Vec Ideal S1x1x2048 .f32) (mp lp : Vec Ideal S1x1024x1 .f32)
    (ap : Vec Ideal S1x1024x16 .f32) (n : Fin 1024) :
    stateAt (k0_pay3 (k0_pay10 x0 x1 x4 x3 mp)) (k0_pay1 (k0_pay13 x0 x1 x4 x3 mp mp lp))
        (k0_pay2 (k0_pay11 x0 x1 x4 x3 mp mp) (k0_pay12 x0 x1 x4 x3 mp) x2 ap) n
      = Row.visit (queryRow x0 n) (keyRows x1) (keyBias x4) (x3 (ix3 (0 : Fin 1) n (0 : Fin 1))) (keyFeats x2) (stateAt mp lp ap n) :=
  Row.St.ext' _ _ (m_visit x0 x1 x2 x3 x4 mp lp ap 0 n 0) (l_visit x0 x1 x2 x3 x4 mp lp ap 0 n 0)
    (fun d => acc_visit x0 x1 x2 x3 x4 mp lp ap 0 n d)

/-- Row n of the reset values is the initial state. -/
theorem state_init (n : Fin 1024) : stateAt (k0_pay5 (F := Ideal)) (k0_pay6 (F := Ideal)) (k0_pay7 (F := Ideal)) n = Row.init := by
  unfold stateAt k0_pay5 k0_pay6 k0_pay7 Row.init
  simp only [shapeCast_self, broadcast_apply]
  refine Row.St.ext' _ _ ?_ ?_ fun d => ?_
  · exact neg_inf
  · exact Ideal.ofBits_zero_f32
  · exact Ideal.ofBits_zero_f32

/-- The blocks staged at a point are the row's and the visit's stretches of the arrays. -/
theorem visit_at_point (c : Dev nD) (T : Fin cfg0.N) (n : Fin 1024) (i : ℕ) (hi : i < 12) (k : ℕ) (hk : k < 6)
    (hi' : T.val / 6 = i) (hk' : T.val % 6 = k) (st : Row.St) :
    Row.visit (queryRow (iblk m c 0 T) n) (keyRows (iblk m c 1 T)) (keyBias (iblk m c 4 T))
        (iblk m c 3 T (ix3 (0 : Fin 1) n (0 : Fin 1))) (keyFeats (iblk m c 2 T)) st
      = Row.visitBlock (X m c) (Y m c) (BX m c) (BY m c) (Vf m c) (row i hi n) ⟨k, hk⟩ st := by
  subst hi' hk'
  unfold Row.visitBlock
  have eq : queryRow (iblk m c 0 T) n = X m c (row (T.val / 6) hi n) := funext fun d => queries_at m c T n d
  have ek : keyRows (iblk m c 1 T) = fun q => Y m c (Row.key ⟨T.val % 6, hk⟩ q) := funext fun q => funext fun d => keys_at m c T q d
  have eb : keyBias (iblk m c 4 T) = fun q => BY m c (Row.key ⟨T.val % 6, hk⟩ q) := funext fun q => kbias_at m c T q
  have ef : keyFeats (iblk m c 2 T) = fun q => Vf m c (Row.key ⟨T.val % 6, hk⟩ q) := funext fun q => funext fun d => feats_at m c T q d
  have ex : iblk m c 3 T (ix3 (0 : Fin 1) n (0 : Fin 1)) = BX m c (row (T.val / 6) hi n) := qbias_at m c T n
  rw [eq, ek, eb, ef, ex]

theorem row_congr (i i' : ℕ) (hi : i < 12) (hi' : i' < 12) (h : i = i') (n : Fin 1024) : row i hi n = row i' hi' n := by
  subst h; rfl

/-- After point t, row n of the carried buffers is the state of query row 1024 * (t / 6) + n after the visits of
    key blocks 0, …, t % 6. -/
theorem carried (c : Dev nD) (t : ℕ) : ∀ (ht : t < cfg0.N) (n : Fin 1024),
    stateAt (outsAt0 m c t ht).2.1 (outsAt0 m c t ht).2.2.1 (outsAt0 m c t ht).2.2.2 n
      = Row.run (X m c) (Y m c) (BX m c) (BY m c) (Vf m c) (row (t / 6) (tile_lt ⟨t, ht⟩) n) (t % 6) := by
  induction t using Nat.strong_induction_on with
  | _ t ih =>
    intro ht n
    have hN : t < 72 := lt_of_lt_of_eq ht (show cfg0.N = 72 from N_0)
    by_cases h0 : t % 6 = 0
    · have h1 : ¬ t % 6 = 5 := by omega
      rw [outsAt0_A m c (⟨t, ht⟩ : Fin cfg0.N) h0 h1]
      dsimp only
      rw [Pieces.m_first c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) ((hcond0_0 (⟨t, ht⟩ : Fin cfg0.N)).mpr h0) (fun h => h1 ((hcond0_1 (⟨t, ht⟩ : Fin cfg0.N)).mp h)) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N))]
      rw [Pieces.l_first c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) ((hcond0_0 (⟨t, ht⟩ : Fin cfg0.N)).mpr h0) (fun h => h1 ((hcond0_1 (⟨t, ht⟩ : Fin cfg0.N)).mp h)) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N))]
      rw [Pieces.acc_first c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) ((hcond0_0 (⟨t, ht⟩ : Fin cfg0.N)).mpr h0) (fun h => h1 ((hcond0_1 (⟨t, ht⟩ : Fin cfg0.N)).mp h)) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N))]
      rw [state_visit]
      rw [state_init, visit_at_point m c (⟨t, ht⟩ : Fin cfg0.N) n (t / 6) (tile_lt (⟨t, ht⟩ : Fin cfg0.N)) 0 (by omega) rfl h0]
      conv_rhs => rw [h0, Row.run]
      rfl
    · have hprev : t - 1 < cfg0.N := Nat.lt_of_le_of_lt (Nat.sub_le _ _) ht
      have IH := ih (t - 1) (by omega) hprev n
      obtain ⟨k, hk⟩ : ∃ k, t % 6 = k + 1 := ⟨t % 6 - 1, by omega⟩
      have hk6 : k + 1 < 6 := by omega
      have hpk : (t - 1) % 6 = k := by omega
      have hpi : (t - 1) / 6 = t / 6 := by omega
      rw [hpk, row_congr ((t - 1) / 6) (t / 6) (tile_lt ⟨t - 1, hprev⟩) (tile_lt (⟨t, ht⟩ : Fin cfg0.N)) hpi n] at IH
      by_cases h1 : t % 6 = 5
      · rw [outsAt0_C m c (⟨t, ht⟩ : Fin cfg0.N) h0 h1]
        dsimp only
        rw [Pieces.m_last c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) (fun h => h0 ((hcond0_0 (⟨t, ht⟩ : Fin cfg0.N)).mp h)) ((hcond0_1 (⟨t, ht⟩ : Fin cfg0.N)).mpr h1) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N)) (outsAt0 m c ((⟨t, ht⟩ : Fin cfg0.N).val - 1) (Nat.lt_of_le_of_lt (Nat.sub_le _ _) (⟨t, ht⟩ : Fin cfg0.N).isLt)).2.1 (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2]
        rw [Pieces.l_last c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) (fun h => h0 ((hcond0_0 (⟨t, ht⟩ : Fin cfg0.N)).mp h)) ((hcond0_1 (⟨t, ht⟩ : Fin cfg0.N)).mpr h1) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N)) (outsAt0 m c ((⟨t, ht⟩ : Fin cfg0.N).val - 1) (Nat.lt_of_le_of_lt (Nat.sub_le _ _) (⟨t, ht⟩ : Fin cfg0.N).isLt)).2.1 (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2]
        rw [Pieces.acc_last c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) (fun h => h0 ((hcond0_0 (⟨t, ht⟩ : Fin cfg0.N)).mp h)) ((hcond0_1 (⟨t, ht⟩ : Fin cfg0.N)).mpr h1) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N)) (outsAt0 m c ((⟨t, ht⟩ : Fin cfg0.N).val - 1) (Nat.lt_of_le_of_lt (Nat.sub_le _ _) (⟨t, ht⟩ : Fin cfg0.N).isLt)).2.1 (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2]
        rw [state_visit]
        rw [IH, visit_at_point m c (⟨t, ht⟩ : Fin cfg0.N) n (t / 6) (tile_lt (⟨t, ht⟩ : Fin cfg0.N)) (k + 1) hk6 rfl hk]
        conv_rhs => rw [hk, Row.run, dif_pos hk6]
      · rw [outsAt0_B m c (⟨t, ht⟩ : Fin cfg0.N) h0 h1]
        dsimp only
        rw [Pieces.m_middle c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) (fun h => h0 ((hcond0_0 (⟨t, ht⟩ : Fin cfg0.N)).mp h)) (fun h => h1 ((hcond0_1 (⟨t, ht⟩ : Fin cfg0.N)).mp h)) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N)) (outsAt0 m c ((⟨t, ht⟩ : Fin cfg0.N).val - 1) (Nat.lt_of_le_of_lt (Nat.sub_le _ _) (⟨t, ht⟩ : Fin cfg0.N).isLt)).2.1 (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2]
        rw [Pieces.l_middle c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) (fun h => h0 ((hcond0_0 (⟨t, ht⟩ : Fin cfg0.N)).mp h)) (fun h => h1 ((hcond0_1 (⟨t, ht⟩ : Fin cfg0.N)).mp h)) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N)) (outsAt0 m c ((⟨t, ht⟩ : Fin cfg0.N).val - 1) (Nat.lt_of_le_of_lt (Nat.sub_le _ _) (⟨t, ht⟩ : Fin cfg0.N).isLt)).2.1 (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2]
        rw [Pieces.acc_middle c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) (ms0_5 (⟨t, ht⟩ : Fin cfg0.N)) (hs0_5 (⟨t, ht⟩ : Fin cfg0.N)) scM0_0 (Memref.isWhole_whole _) scM0_1 (Memref.isWhole_whole _) scM0_2 (Memref.isWhole_whole _) (fun h => h0 ((hcond0_0 (⟨t, ht⟩ : Fin cfg0.N)).mp h)) (fun h => h1 ((hcond0_1 (⟨t, ht⟩ : Fin cfg0.N)).mp h)) (iblk m c 0 (⟨t, ht⟩ : Fin cfg0.N)) (iblk m c 1 (⟨t, ht⟩ : Fin cfg0.N)) (iblk m c 2 (⟨t, ht⟩ : Fin cfg0.N)) (iblk m c 3 (⟨t, ht⟩ : Fin cfg0.N)) (iblk m c 4 (⟨t, ht⟩ : Fin cfg0.N)) (outsAt0 m c ((⟨t, ht⟩ : Fin cfg0.N).val - 1) (Nat.lt_of_le_of_lt (Nat.sub_le _ _) (⟨t, ht⟩ : Fin cfg0.N).isLt)).2.1 (outsAt0 m c ((⟨t, ht⟩ : Fin cfg0.N).val - 1) (Nat.lt_of_le_of_lt (Nat.sub_le _ _) (⟨t, ht⟩ : Fin cfg0.N).isLt)).2.2.1 (outsAt0 m c ((⟨t, ht⟩ : Fin cfg0.N).val - 1) (Nat.lt_of_le_of_lt (Nat.sub_le _ _) (⟨t, ht⟩ : Fin cfg0.N).isLt)).2.2.2]
        rw [state_visit]
        rw [IH, visit_at_point m c (⟨t, ht⟩ : Fin cfg0.N) n (t / 6) (tile_lt (⟨t, ht⟩ : Fin cfg0.N)) (k + 1) hk6 rfl hk]
        conv_rhs => rw [hk, Row.run, dif_pos hk6]

end Cert.KernelIdeal.Invariant

end
-- ==== Proof.Cover.lean ====
/-
  The output window covers its array.

  The grid has 12 x 6 points; point t is tile t / 6 of the queries at visit t % 6.  The output window's block at point t
  is rows 1024 * (t / 6) to 1024 * (t / 6) + 1023 of the result, all 16 columns, and it is written back at the tile's
  last visit, t % 6 = 5.  So row r of the result is written back at the point 6 * (r / 1024) + 5.
-/
import proofs.«180915_j66322884985174_2_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- The output window's printed index map, decided over the grid: the block of point t is (0, t / 6, 0). -/
theorem out_index : ∀ t : Fin cfg0.N,
    win0_5.index t (0 : Fin 3) = 0 ∧ win0_5.index t (1 : Fin 3) = t.val / 6 ∧ win0_5.index t (2 : Fin 3) = 0 :=
  (by decide +kernel : ∀ t : Fin grid0.N, _)

/-- An index of the result is in point t's output block iff each coordinate is in the block's range on its axis. -/
theorem mem_blk5 (t : Fin cfg0.N) (i : S1x12288x16.Idx) :
    i ∈ ((cfg0.win 5).blk t).view.set ↔ ∀ a : Fin 3, win0_5.index t a * S1x1024x16.size a ≤ (i a).val ∧ (i a).val < win0_5.index t a * S1x1024x16.size a + S1x1024x16.size a := by
  show i ∈ ((View.whole main_v13).slice (win0_5.rect t)).set ↔ _
  rw [View.set_slice_whole, Rect.mem_set_unit]
  exact Iff.rfl

/-- Every index of the result is in the output block of a point that writes back: row r at the last visit of tile
    r / 1024. -/
theorem cover5 (i : S1x12288x16.Idx) :
    ∃ t : Fin cfg0.N, (cfg0.win 5).flush t = true ∧ i ∈ ((cfg0.win 5).blk t).view.set := by
  have hi0 : (i 0).val < 1 := (i 0).isLt
  have hi1 : (i 1).val < 12288 := (i 1).isLt
  have hi2 : (i 2).val < 16 := (i 2).isLt
  have hN : cfg0.N = 72 := N_0
  obtain ⟨t, ht⟩ : ∃ t : Fin cfg0.N, t.val = 6 * ((i 1).val / 1024) + 5 := ⟨⟨_, by omega⟩, rfl⟩
  obtain ⟨e0, e1, e2⟩ := out_index t
  refine ⟨t, (flush0_5 t).2 (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 16 ≤ (i 2).val ∧ (i 2).val < win0_5.index t (2 : Fin 3) * 16 + 16; omega

end Cert.KernelIdeal.Cover

end
-- ==== Proof.HostArrays.lean ====
/-
  The three arrays the program computes on the host before the kernel's region, as functions of the arguments.

  From the query points x it forms the scaled queries 100 * x and the query biases -50 * |x_r|^2 (a column
  [1, 12288, 1]); from the key points y the key biases -50 * |y_j|^2, laid out as a row [1, 1, 12288].
-/
import proofs.«180915_j66322884985174_2_alg».proof.Proof.Gen.KernelIdeal

noncomputable section

namespace Cert.KernelIdeal.HostArrays

open Cert.KernelIdeal Cert.KernelIdeal.Gen Idealize.ShloMosaic

variable {F : FTy → Type} [FloatOps F]

/-- The scaled queries: every coordinate times the constant 100. -/
def scaled (x : FVec F S1x12288x3 .f32) : FVec F S1x12288x3 .f32 :=
  mulf x (broadcastInDim S1x12288x3 ![] bcast_S_S1x12288x3 (constant S_ .f32 0x42C80000#32))

/-- The bias column of a point set: -50 times the sum of the squares of each point's coordinates. -/
def biasCol (x : FVec F S1x12288x3 .f32) : FVec F S1x12288x1 .f32 :=
  mulf (broadcastInDim S1x12288x1 ![] bcast_S_S1x12288x1 (constant S_ .f32 0xC2480000#32))
    (broadcastInDim S1x12288x1 ![0, 1] bcast_S1x12288_S1x12288x1_0_1
      (Host.reduceAdd (mulf x x) (constant S_ .f32 0x00000000#32) reducesTo_S1x12288x3_S1x12288_d2 h_S_))

/-- The bias row of the keys: their bias column transposed to [1, 1, 12288]. -/
def biasRow (y : FVec F S1x12288x3 .f32) : FVec F S1x1x12288 .f32 :=
  transpose S1x1x12288 [0, 2, 1] (biasCol y) transposes_S1x12288x1_S1x1x12288_0_2_1

end Cert.KernelIdeal.HostArrays

end
-- ==== Proof.HostV.lean ====
/-
  What three of the buffers hold when the kernel's region starts: the host operations before the region have written
  the scaled queries, the queries' bias column and the keys' bias row, each the corresponding function of the
  argument array as launched.
-/
import proofs.«180915_j66322884985174_2_alg».proof.Proof.Gen.KernelIdeal.Frame
import proofs.«180915_j66322884985174_2_alg».proof.Proof.HostArrays
import Idealize.ShloMosaic.Lib.StableHlo.Run
import Idealize.ShloMosaic.Lib.Tactic

noncomputable section

open Idealize.ShloMosaic Idealize.ShloMosaic.TcCoe Idealize.SL.Sem

namespace Cert.KernelIdeal.HostV

open Cert.KernelIdeal Cert.KernelIdeal.Gen

variable {F : FTy → Type} [FloatOps F]

variable (m : (ℓ : Loc nD τ sig) → Buf (Elt F) ℓ)

/-- The scaled queries: the product of the first argument with the broadcast constant. -/
theorem V_scaled (c : Dev nD) :
    (V m c main_v1 : S1x12288x3.Idx → Elt F .f32) = HostArrays.scaled (m ((c : Thread nD τ).loc main_arg0)) := by
  dsimp only [Gen.V, Gen.hostOps0]
  after_results
  rfl

/-- The queries' bias column, computed from the first argument. -/
theorem V_biasCol (c : Dev nD) :
    (V m c main_v6 : S1x12288x1.Idx → Elt F .f32) = HostArrays.biasCol (m ((c : Thread nD τ).loc main_arg0)) := by
  dsimp only [Gen.V, Gen.hostOps0]
  after_results
  rfl

/-- The keys' bias row, computed from the second argument. -/
theorem V_biasRow (c : Dev nD) :
    (V m c main_v12 : S1x1x12288.Idx → Elt F .f32) = HostArrays.biasRow (m ((c : Thread nD τ).loc main_arg1)) := by
  dsimp only [Gen.V, Gen.hostOps0]
  after_results
  rfl

end Cert.KernelIdeal.HostV

end
-- ==== Proof.HostArraysAt.lean ====
/-
  The three host-computed arrays read at an index, where every entry of the argument array is a real number:
  the scaled queries are 100 * x, a point set's bias column is -50 * (x_0^2 + x_1^2 + x_2^2) at each point, and the
  keys' bias row is their bias column with the last two axes exchanged.
-/
import proofs.«180915_j66322884985174_2_alg».proof.Proof.HostArrays
import Idealize.ShloMosaic.Lib.ValueIdx
import Idealize.ShloMosaic.Lib.Pipeline.Value
import Idealize.ShloMosaic.PureOps.Ideal.Laws

noncomputable section

namespace Cert.KernelIdeal.HostArraysAt

open Cert.KernelIdeal Cert.KernelIdeal.Gen Idealize.ShloMosaic Idealize.ShloMosaic.ValueIdx

/-! ### The two float constants -/

/-- The pattern 0x42C80000 is the number 100. -/
theorem ofBits_100 : Ideal.ofBits .f32 0x42C80000#32 = ((100 : ℝ) : EReal) := by
  simp [Ideal.ofBits, Ideal.ieee, -EReal.coe_mul]; norm_num

/-- The pattern 0xC2480000 is the number -50. -/
theorem ofBits_neg50 : Ideal.ofBits .f32 0xC2480000#32 = ((-50 : ℝ) : EReal) := by
  simp [Ideal.ofBits, Ideal.ieee, -EReal.coe_mul]; norm_num

/-! ### The sum over the last axis -/

/-- The host's sum of a [1, 12288, 3] array over its last axis, from the initial value 0, at row r. -/
theorem rowSum_apply (y0 : FVec Ideal S1x12288x3 .f32) (r : Fin 12288) :
    Host.reduceAdd y0 (constant (F := Ideal) S_ .f32 0x00000000#32) reducesTo_S1x12288x3_S1x12288_d2 h_S_
        (ix2 (0 : Fin 1) r)
      = ∑ k : Fin 3, y0 (ix3 (0 : Fin 1) r k) := by
  simp only [Host.reduceAdd, Ideal.hostReduceAdd_def]
  rw [Ideal.hostReduceAdd_single reducesTo_S1x12288x3_S1x12288_d2 (by decide)]
  rw [constant_apply, Ideal.ofBits_zero_f32, zero_add]
  refine Finset.sum_congr rfl fun k _ => ?_
  exact congrArg y0 (funext fun a => Fin.ext (by match a with | ⟨0, _⟩ => rfl | ⟨1, _⟩ => rfl | ⟨2, _⟩ => rfl))

/-! ### The three arrays at an index -/

section

variable (x : FVec Ideal S1x12288x3 .f32) (hx : ∀ i, x i = (((x i).toReal : ℝ) : EReal))
include hx

theorem scaled_apply (r : Fin 12288) (d : Fin 3) :
    HostArrays.scaled (F := Ideal) x (ix3 (0 : Fin 1) r d)
      = (((x (ix3 (0 : Fin 1) r d)).toReal * 100 : ℝ) : EReal) := by
  obtain ⟨t, ht⟩ : ∃ t : S1x12288x3.Idx → ℝ, ∀ i, x i = ((t i : ℝ) : EReal) := ⟨fun i => (x i).toReal, hx⟩
  unfold HostArrays.scaled
  rw [mulf_apply, broadcastInDim_apply _ bcast_S_S1x12288x3 _ _ ix0 (fun a => a.elim0), constant_apply, ofBits_100]
  simp only [ht, EReal.toReal_coe, ← EReal.coe_mul]

theorem biasCol_apply (r : Fin 12288) (u : Fin 1) :
    HostArrays.biasCol (F := Ideal) x (ix3 (0 : Fin 1) r u)
      = ((-50 * ∑ d : Fin 3, (x (ix3 (0 : Fin 1) r d)).toReal * (x (ix3 (0 : Fin 1) r d)).toReal : ℝ) : EReal) := by
  obtain ⟨t, ht⟩ : ∃ t : S1x12288x3.Idx → ℝ, ∀ i, x i = ((t i : ℝ) : EReal) := ⟨fun i => (x i).toReal, hx⟩
  unfold HostArrays.biasCol
  rw [mulf_apply, broadcastInDim_apply _ bcast_S_S1x12288x1 _ _ ix0 (fun a => a.elim0), constant_apply, ofBits_neg50,
    broadcastInDim_apply _ bcast_S1x12288_S1x12288x1_0_1 _ _ (ix2 (0 : Fin 1) r) (fun a => match a with
      | ⟨0, _⟩ => by show (0 : Nat) = if (1 : Nat) = 1 then 0 else _; rw [if_pos rfl]
      | ⟨1, _⟩ => by show r.val = if (12288 : Nat) = 1 then 0 else r.val; rw [if_neg (by decide)]),
    rowSum_apply]
  simp only [mulf_apply, Fin.sum_univ_three, ht, EReal.toReal_coe, ← EReal.coe_mul, ← EReal.coe_add]

theorem biasRow_apply (u : Fin 1) (j : Fin 12288) :
    HostArrays.biasRow (F := Ideal) x (ix3 (0 : Fin 1) u j)
      = ((-50 * ∑ d : Fin 3, (x (ix3 (0 : Fin 1) j d)).toReal * (x (ix3 (0 : Fin 1) j d)).toReal : ℝ) : EReal) := by
  unfold HostArrays.biasRow
  rw [transpose_apply _ _ transposes_S1x12288x1_S1x1x12288_0_2_1 _ (ix3 (0 : Fin 1) j u) (fun b => match b with
    | ⟨0, _⟩ => rfl
    | ⟨1, _⟩ => rfl
    | ⟨2, _⟩ => rfl)]
  exact biasCol_apply x hx j u

end

end Cert.KernelIdeal.HostArraysAt

end
-- ==== Proof.Spec.lean ====
/-
  The normalized Gaussian-kernel average, as a function of real arrays.

  For query points x_r and key points y_j in R^3 (r, j < 12288) and key features v_j in R^16, the logit of the pair
  (r, j) is -50 * |x_r - y_j|^2 (that is -|x_r - y_j|^2 / (2 sigma^2) at sigma = 1/10), the weight of key j for query r
  is exp (logit r j - top r), where top r is the largest logit of row r, and the result at (r, d) is the weighted
  average (sum_j weight r j * v j d) / (sum_j weight r j).  Subtracting the row's largest logit changes nothing in the
  quotient; it is what both programs compute.

  `G` is the same function on arrays of extended reals of the programs' shapes, through the real parts of the entries:
  the two programs' results are compared with it where every input entry is a real number.
-/
import Idealize.ShloMosaic.PureOps.Ideal
import Idealize.ShloMosaic.Lib.ValueIdx

noncomputable section

namespace Cert.GaussConv

open Idealize.ShloMosaic

/-- The logit of query row `r` against key row `j`: -50 times the squared distance. -/
def logit (x y : Fin 12288 → Fin 3 → ℝ) (r j : Fin 12288) : ℝ :=
  -50 * ∑ d : Fin 3, (x r d - y j d) ^ 2

/-- The largest logit of row `r`. -/
def top (x y : Fin 12288 → Fin 3 → ℝ) (r : Fin 12288) : ℝ :=
  Finset.univ.sup' ⟨(0 : Fin 12288), Finset.mem_univ _⟩ (logit x y r)

/-- The unnormalized weight of key `j` for query `r`. -/
def weight (x y : Fin 12288 → Fin 3 → ℝ) (r j : Fin 12288) : ℝ :=
  Real.exp (logit x y r j - top x y r)

/-- The weighted average of the key features. -/
def out (x y : Fin 12288 → Fin 3 → ℝ) (v : Fin 12288 → Fin 16 → ℝ) (r : Fin 12288) (d : Fin 16) : ℝ :=
  (∑ j : Fin 12288, weight x y r j * v j d) / ∑ j : Fin 12288, weight x y r j

/-- The real parts of a [1, 12288, n] array of extended reals, as a matrix. -/
def re {n : Nat} (a : (⟨3, ![1, 12288, n]⟩ : Shape).Idx → EReal) (r : Fin 12288) (d : Fin n) : ℝ :=
  (a (ValueIdx.ix3 (0 : Fin 1) r d)).toReal

/-- The result array both programs compute, where every input entry is a real number. -/
def G (x y : (⟨3, ![1, 12288, 3]⟩ : Shape).Idx → EReal) (v : (⟨3, ![1, 12288, 16]⟩ : Shape).Idx → EReal) :
    (⟨3, ![1, 12288, 16]⟩ : Shape).Idx → EReal :=
  fun i => ((out (re x) (re y) (re v) (i 1) (i 2) : ℝ) : EReal)

end Cert.GaussConv

end
-- ==== Proof.OnlineSoftmax.lean ====
/-
  The blockwise ("online") computation of one row of a softmax-weighted average equals the closed form.

  Notation: u j is the logit of key j for the fixed query row.  After the visits of the first blocks, whose keys
  form the set J, the running state is (M, L, A) with M = max_{j in J} u j, L = sum_{j in J} exp (u j - M) and
  A d = sum_{j in J} exp (u j - M) * v j d.  A visit of a further block B replaces M by M' = max M (max_{j in B} u j),
  rescales L and A by exp (M - M') — exp (M - M') * exp (u j - M) = exp (u j - M') — and adds the block's terms, which
  gives the same three expressions for J ∪ B.  Before the first visit the running maximum is -infinity, the rescaling
  factor is exp (-infinity) = 0 and the sums are 0.  After the last visit J is the set of all keys, M is the row's
  largest logit, and A d / L is the weighted average.
-/
import proofs.«180915_j66322884985174_2_alg».proof.Proof.Spec
import proofs.«180915_j66322884985174_2_alg».proof.Proof.Row

noncomputable section

namespace Cert.GaussConv.Row

open Idealize.ShloMosaic

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum of two numbers. -/
theorem coe_max (a b : ℝ) : ((max a b : ℝ) : EReal) = max (a : EReal) (b : EReal) :=
  (EReal.coe_strictMono.monotone).map_max

/-- Folding `max` from -infinity over a nonempty family of reals gives the largest of them. -/
theorem fold_max_coe {ι : Type*} (s : Finset ι) (hs : s.Nonempty) (f : ι → ℝ) :
    s.fold max (⊥ : EReal) (fun i => (f i : EReal)) = ((s.sup' hs f : ℝ) : EReal) := by
  have h1 : s.fold max (⊥ : EReal) (fun i => (f i : EReal)) = s.sup (fun i => (f i : EReal)) := rfl
  rw [h1, ← Finset.sup'_eq_sup hs, Finset.comp_sup'_eq_sup'_comp hs (fun a : ℝ => (a : EReal)) coe_max]
  rfl

/-! ### One visit of a block whose data are real numbers

`s q` is the block's score of key q (without the row's own bias `b`), `w q d` the key's features. -/

/-- The largest of a block's scores. -/
def blockTop (s : Fin 2048 → ℝ) : ℝ := Finset.univ.sup' ⟨(0 : Fin 2048), Finset.mem_univ _⟩ s

theorem fold_score (xs : Fin 3 → EReal) (yb : Fin 2048 → Fin 3 → EReal) (byb : Fin 2048 → EReal)
    (s : Fin 2048 → ℝ) (hs : ∀ q, score xs yb byb q = (s q : EReal)) :
    (Finset.univ : Finset (Fin 2048)).fold max (⊥ : EReal) (score xs yb byb) = ((blockTop s : ℝ) : EReal) := by
  rw [show score xs yb byb = fun q => (s q : EReal) from funext hs]
  exact fold_max_coe _ _ s

/-- The first visit: the running maximum is -infinity, so the old sums are multiplied by exp (-infinity) = 0. -/
theorem visit_init (xs : Fin 3 → EReal) (yb : Fin 2048 → Fin 3 → EReal) (byb : Fin 2048 → EReal) (bx : EReal)
    (vb : Fin 2048 → Fin 16 → EReal) (s : Fin 2048 → ℝ) (b : ℝ) (w : Fin 2048 → Fin 16 → ℝ)
    (hs : ∀ q, score xs yb byb q = (s q : EReal)) (hb : bx = (b : EReal))
    (hw : ∀ q d, vb q d = (w q d : EReal)) :
    visit xs yb byb bx vb init =
      ⟨((b + blockTop s : ℝ) : EReal),
       ((∑ q, Real.exp (s q + (b - (b + blockTop s))) : ℝ) : EReal),
       fun d => ((∑ q, Real.exp (s q + (b - (b + blockTop s))) * w q d : ℝ) : EReal)⟩ := by
  have hm : max (⊥ : EReal) (bx + (Finset.univ : Finset (Fin 2048)).fold max (⊥ : EReal) (score xs yb byb))
      = ((b + blockTop s : ℝ) : EReal) := by
    rw [fold_score xs yb byb s hs, hb, max_eq_right bot_le, EReal.coe_add]
  have hp : ∀ q, Ideal.exp (score xs yb byb q + (bx - ((b + blockTop s : ℝ) : EReal)))
      = ((Real.exp (s q + (b - (b + blockTop s))) : ℝ) : EReal) := by
    intro q
    rw [hs, hb, ← EReal.coe_sub, ← EReal.coe_add, Ideal.exp_coe]
  simp only [visit, init, hm, hp, hw, EReal.bot_sub, Ideal.exp_bot, zero_mul, zero_add, ← EReal.coe_mul, ← coe_sum]

/-- A later visit: everything stays real. -/
theorem visit_coe (xs : Fin 3 → EReal) (yb : Fin 2048 → Fin 3 → EReal) (byb : Fin 2048 → EReal) (bx : EReal)
    (vb : Fin 2048 → Fin 16 → EReal) (s : Fin 2048 → ℝ) (b : ℝ) (w : Fin 2048 → Fin 16 → ℝ)
    (hs : ∀ q, score xs yb byb q = (s q : EReal)) (hb : bx = (b : EReal))
    (hw : ∀ q d, vb q d = (w q d : EReal)) (M L : ℝ) (A : Fin 16 → ℝ) :
    visit xs yb byb bx vb ⟨(M : EReal), (L : EReal), fun d => (A d : EReal)⟩ =
      ⟨((max M (b + blockTop s) : ℝ) : EReal),
       ((Real.exp (M - max M (b + blockTop s)) * L
          + ∑ q, Real.exp (s q + (b - max M (b + blockTop s))) : ℝ) : EReal),
       fun d => ((Real.exp (M - max M (b + blockTop s)) * A d
          + ∑ q, Real.exp (s q + (b - max M (b + blockTop s))) * w q d : ℝ) : EReal)⟩ := by
  have hm : max (M : EReal) (bx + (Finset.univ : Finset (Fin 2048)).fold max (⊥ : EReal) (score xs yb byb))
      = ((max M (b + blockTop s) : ℝ) : EReal) := by
    rw [fold_score xs yb byb s hs, hb, ← EReal.coe_add, ← coe_max]
  have ha : Ideal.exp ((M : EReal) - ((max M (b + blockTop s) : ℝ) : EReal))
      = ((Real.exp (M - max M (b + blockTop s)) : ℝ) : EReal) := by
    rw [← EReal.coe_sub, Ideal.exp_coe]
  have hp : ∀ q, Ideal.exp (score xs yb byb q + (bx - ((max M (b + blockTop s) : ℝ) : EReal)))
      = ((Real.exp (s q + (b - max M (b + blockTop s))) : ℝ) : EReal) := by
    intro q
    rw [hs, hb, ← EReal.coe_sub, ← EReal.coe_add, Ideal.exp_coe]
  simp only [visit, hm, ha, hp, hw, ← EReal.coe_mul, ← coe_sum, ← EReal.coe_add]

/-! ### The keys of a block -/

/-- The set of the keys of block `k`. -/
def blockKeys (k : Fin 6) : Finset (Fin 12288) := Finset.univ.image (key k)

theorem key_injective (k : Fin 6) : Function.Injective (key k) := by
  intro a c h
  have h' : 2048 * k.val + a.val = 2048 * k.val + c.val := congrArg Fin.val h
  exact Fin.ext (by omega)

theorem mem_blockKeys (k : Fin 6) (j : Fin 12288) :
    j ∈ blockKeys k ↔ 2048 * k.val ≤ j.val ∧ j.val < 2048 * (k.val + 1) := by
  simp only [blockKeys, Finset.mem_image, Finset.mem_univ, true_and]
  constructor
  · rintro ⟨q, rfl⟩
    have := q.isLt
    simp only [key]
    omega
  · rintro ⟨h1, h2⟩
    exact ⟨⟨j.val - 2048 * k.val, by omega⟩, Fin.ext (by simp only [key]; omega)⟩

/-- A sum over the keys of a block, written with the block's own numbering. -/
theorem sum_blockKeys (k : Fin 6) (f : Fin 12288 → ℝ) : ∑ j ∈ blockKeys k, f j = ∑ q, f (key k q) :=
  Finset.sum_image (fun a _ c _ h => key_injective k h)

/-- The keys of blocks 0, …, k. -/
def firstKeys (k : ℕ) : Finset (Fin 12288) := Finset.univ.filter (fun j => j.val < 2048 * (k + 1))

theorem firstKeys_zero : firstKeys 0 = blockKeys 0 := by
  ext j
  simp only [firstKeys, Finset.mem_filter, Finset.mem_univ, true_and, mem_blockKeys]
  simp

theorem firstKeys_succ (k : ℕ) (h : k + 1 < 6) : firstKeys (k + 1) = firstKeys k ∪ blockKeys ⟨k + 1, h⟩ := by
  ext j
  simp only [firstKeys, Finset.mem_filter, Finset.mem_univ, true_and, mem_blockKeys, Finset.mem_union, Fin.val_mk]
  omega

theorem firstKeys_disjoint (k : ℕ) (h : k + 1 < 6) : Disjoint (firstKeys k) (blockKeys ⟨k + 1, h⟩) := by
  rw [Finset.disjoint_left]
  intro j hj hj'
  simp only [firstKeys, Finset.mem_filter, Finset.mem_univ, true_and] at hj
  rw [mem_blockKeys] at hj'
  simp only [Fin.val_mk] at hj'
  omega

theorem firstKeys_five : firstKeys 5 = Finset.univ := by
  ext j
  have := j.isLt
  simp only [firstKeys, Finset.mem_filter, Finset.mem_univ, true_and, iff_true]
  omega

/-! ### A block's scores and the logits -/

/-- The score of key q of block k for row r: the scaled inner product plus the key's bias. -/
def sc (x y : Fin 12288 → Fin 3 → ℝ) (r : Fin 12288) (k : Fin 6) (q : Fin 2048) : ℝ :=
  (∑ d : Fin 3, (x r d * 100) * y (key k q) d) + (-50 * ∑ d : Fin 3, y (key k q) d * y (key k q) d)

/-- The row's own bias. -/
def rowBias (x : Fin 12288 → Fin 3 → ℝ) (r : Fin 12288) : ℝ := -50 * ∑ d : Fin 3, x r d * x r d

/-- 100 x·y - 50 |y|^2 - 50 |x|^2 = -50 |x - y|^2. -/
theorem sc_add_rowBias (x y : Fin 12288 → Fin 3 → ℝ) (r : Fin 12288) (k : Fin 6) (q : Fin 2048) :
    sc x y r k q + rowBias x r = logit x y r (key k q) := by
  simp only [sc, rowBias, logit, Fin.sum_univ_three]
  ring

theorem score_block (x y : Fin 12288 → Fin 3 → ℝ) (X Y : Fin 12288 → Fin 3 → EReal) (BY : Fin 12288 → EReal)
    (hX : ∀ r d, X r d = ((x r d * 100 : ℝ) : EReal))
    (hY : ∀ j d, Y j d = ((y j d : ℝ) : EReal))
    (hBY : ∀ j, BY j = ((-50 * ∑ d : Fin 3, y j d * y j d : ℝ) : EReal))
    (r : Fin 12288) (k : Fin 6) (q : Fin 2048) :
    score (X r) (fun q => Y (key k q)) (fun q => BY (key k q)) q = ((sc x y r k q : ℝ) : EReal) := by
  simp only [score, sc, hX, hY, hBY, ← EReal.coe_mul, ← coe_sum, ← EReal.coe_add]

theorem logit_le_blockTop (x y : Fin 12288 → Fin 3 → ℝ) (r : Fin 12288) (k : Fin 6) (q : Fin 2048) :
    logit x y r (key k q) ≤ rowBias x r + blockTop (sc x y r k) := by
  have h : sc x y r k q ≤ blockTop (sc x y r k) := Finset.le_sup' (sc x y r k) (Finset.mem_univ q)
  rw [← sc_add_rowBias]
  linarith

theorem exists_logit_eq_blockTop (x y : Fin 12288 → Fin 3 → ℝ) (r : Fin 12288) (k : Fin 6) :
    ∃ q, logit x y r (key k q) = rowBias x r + blockTop (sc x y r k) := by
  obtain ⟨q, _, hq⟩ := Finset.exists_mem_eq_sup' ⟨(0 : Fin 2048), Finset.mem_univ _⟩ (sc x y r k)
  refine ⟨q, ?_⟩
  rw [← sc_add_rowBias, blockTop, hq]
  ring

/-- The block's new terms, as sums over the block's keys of the logits. -/
theorem block_sum_l (x y : Fin 12288 → Fin 3 → ℝ) (r : Fin 12288) (k : Fin 6) (M' : ℝ) :
    ∑ q, Real.exp (sc x y r k q + (rowBias x r - M')) = ∑ j ∈ blockKeys k, Real.exp (logit x y r j - M') := by
  rw [sum_blockKeys]
  refine Finset.sum_congr rfl (fun q _ => ?_)
  rw [← sc_add_rowBias]
  congr 1
  ring

theorem block_sum_acc (x y : Fin 12288 → Fin 3 → ℝ) (v : Fin 12288 → Fin 16 → ℝ) (r : Fin 12288) (k : Fin 6)
    (M' : ℝ) (d : Fin 16) :
    ∑ q, Real.exp (sc x y r k q + (rowBias x r - M')) * v (key k q) d
      = ∑ j ∈ blockKeys k, Real.exp (logit x y r j - M') * v j d := by
  rw [sum_blockKeys k (fun j => Real.exp (logit x y r j - M') * v j d)]
  refine Finset.sum_congr rfl (fun q _ => ?_)
  rw [← sc_add_rowBias]
  congr 2
  ring

/-! ### The state after the visits of a set of keys -/

/-- The state is the one that belongs to the set `J` of keys: its running maximum is the largest logit over `J`, and
    its sums are the sums over `J` of the weights relative to that maximum. -/
def Inv (u : Fin 12288 → ℝ) (v : Fin 12288 → Fin 16 → ℝ) (J : Finset (Fin 12288)) (st : St) : Prop :=
  ∃ M : ℝ, (∀ j ∈ J, u j ≤ M) ∧ (∃ j ∈ J, u j = M) ∧
    st = ⟨(M : EReal), ((∑ j ∈ J, Real.exp (u j - M) : ℝ) : EReal),
      fun d => ((∑ j ∈ J, Real.exp (u j - M) * v j d : ℝ) : EReal)⟩

section Blocks

variable (x y : Fin 12288 → Fin 3 → ℝ) (v : Fin 12288 → Fin 16 → ℝ)
  (X Y : Fin 12288 → Fin 3 → EReal) (BX BY : Fin 12288 → EReal) (V : Fin 12288 → Fin 16 → EReal)

/-- The first visit gives the state of the first block's keys. -/
theorem inv_first
    (hX : ∀ r d, X r d = ((x r d * 100 : ℝ) : EReal))
    (hY : ∀ j d, Y j d = ((y j d : ℝ) : EReal))
    (hBX : ∀ r, BX r = ((-50 * ∑ d : Fin 3, x r d * x r d : ℝ) : EReal))
    (hBY : ∀ j, BY j = ((-50 * ∑ d : Fin 3, y j d * y j d : ℝ) : EReal))
    (hV : ∀ j d, V j d = ((v j d : ℝ) : EReal))
    (r : Fin 12288) (k : Fin 6) :
    Inv (logit x y r) v (blockKeys k) (visitBlock X Y BX BY V r k init) := by
  unfold visitBlock
  rw [visit_init (X r) (fun q => Y (key k q)) (fun q => BY (key k q)) (BX r) (fun q => V (key k q))
    (sc x y r k) (rowBias x r) (fun q => v (key k q))
    (score_block x y X Y BY hX hY hBY r k) (hBX r) (fun q d => hV (key k q) d)]
  refine ⟨rowBias x r + blockTop (sc x y r k), ?_, ?_, ?_⟩
  · intro j hj
    obtain ⟨q, _, rfl⟩ := Finset.mem_image.mp hj
    exact logit_le_blockTop x y r k q
  · obtain ⟨q, hq⟩ := exists_logit_eq_blockTop x y r k
    exact ⟨key k q, Finset.mem_image_of_mem _ (Finset.mem_univ q), hq⟩
  · rw [block_sum_l]
    simp only [block_sum_acc]

/-- A later visit takes the state of a set `J` of keys to the state of `J` together with the block's keys. -/
theorem inv_step
    (hX : ∀ r d, X r d = ((x r d * 100 : ℝ) : EReal))
    (hY : ∀ j d, Y j d = ((y j d : ℝ) : EReal))
    (hBX : ∀ r, BX r = ((-50 * ∑ d : Fin 3, x r d * x r d : ℝ) : EReal))
    (hBY : ∀ j, BY j = ((-50 * ∑ d : Fin 3, y j d * y j d : ℝ) : EReal))
    (hV : ∀ j d, V j d = ((v j d : ℝ) : EReal))
    (r : Fin 12288) (k : Fin 6) (J : Finset (Fin 12288)) (hJ : Disjoint J (blockKeys k)) (st : St)
    (hst : Inv (logit x y r) v J st) :
    Inv (logit x y r) v (J ∪ blockKeys k) (visitBlock X Y BX BY V r k st) := by
  obtain ⟨M, hle, ⟨j0, hj0, hj0M⟩, rfl⟩ := hst
  unfold visitBlock
  rw [visit_coe (X r) (fun q => Y (key k q)) (fun q => BY (key k q)) (BX r) (fun q => V (key k q))
    (sc x y r k) (rowBias x r) (fun q => v (key k q))
    (score_block x y X Y BY hX hY hBY r k) (hBX r) (fun q d => hV (key k q) d)]
  have hresc : ∀ j, Real.exp (M - max M (rowBias x r + blockTop (sc x y r k))) * Real.exp (logit x y r j - M)
      = Real.exp (logit x y r j - max M (rowBias x r + blockTop (sc x y r k))) := by
    intro j
    rw [← Real.exp_add]
    congr 1
    ring
  refine ⟨max M (rowBias x r + blockTop (sc x y r k)), ?_, ?_, ?_⟩
  · intro j hj
    rcases Finset.mem_union.mp hj with hj | hj
    · exact le_trans (hle j hj) (le_max_left _ _)
    · obtain ⟨q, _, rfl⟩ := Finset.mem_image.mp hj
      exact le_trans (logit_le_blockTop x y r k q) (le_max_right _ _)
  · rcases le_total M (rowBias x r + blockTop (sc x y r k)) with h | h
    · obtain ⟨q, hq⟩ := exists_logit_eq_blockTop x y r k
      exact ⟨key k q, Finset.mem_union_right _ (Finset.mem_image_of_mem _ (Finset.mem_univ q)),
        by rw [max_eq_right h]; exact hq⟩
    · exact ⟨j0, Finset.mem_union_left _ hj0, by rw [max_eq_left h]; exact hj0M⟩
  · have hl : Real.exp (M - max M (rowBias x r + blockTop (sc x y r k))) * ∑ j ∈ J, Real.exp (logit x y r j - M)
          + ∑ q, Real.exp (sc x y r k q + (rowBias x r - max M (rowBias x r + blockTop (sc x y r k))))
        = ∑ j ∈ J ∪ blockKeys k, Real.exp (logit x y r j - max M (rowBias x r + blockTop (sc x y r k))) := by
      rw [Finset.sum_union hJ, Finset.mul_sum, block_sum_l]
      congr 1
      exact Finset.sum_congr rfl (fun j _ => hresc j)
    have hacc : ∀ d, Real.exp (M - max M (rowBias x r + blockTop (sc x y r k)))
            * ∑ j ∈ J, Real.exp (logit x y r j - M) * v j d
          + ∑ q, Real.exp (sc x y r k q + (rowBias x r - max M (rowBias x r + blockTop (sc x y r k)))) * v (key k q) d
        = ∑ j ∈ J ∪ blockKeys k,
            Real.exp (logit x y r j - max M (rowBias x r + blockTop (sc x y r k))) * v j d := by
      intro d
      rw [Finset.sum_union hJ, Finset.mul_sum, block_sum_acc]
      congr 1
      exact Finset.sum_congr rfl (fun j _ => by rw [← mul_assoc, hresc j])
    rw [hl]
    simp only [hacc]

/-- After the visits of blocks 0, …, k the state is the one of their keys. -/
theorem inv_run
    (hX : ∀ r d, X r d = ((x r d * 100 : ℝ) : EReal))
    (hY : ∀ j d, Y j d = ((y j d : ℝ) : EReal))
    (hBX : ∀ r, BX r = ((-50 * ∑ d : Fin 3, x r d * x r d : ℝ) : EReal))
    (hBY : ∀ j, BY j = ((-50 * ∑ d : Fin 3, y j d * y j d : ℝ) : EReal))
    (hV : ∀ j d, V j d = ((v j d : ℝ) : EReal))
    (r : Fin 12288) (k : ℕ) (hk : k < 6) :
    Inv (logit x y r) v (firstKeys k) (run X Y BX BY V r k) := by
  induction k with
  | zero =>
    rw [firstKeys_zero, run]
    exact inv_first x y v X Y BX BY V hX hY hBX hBY hV r 0
  | succ k ih =>
    rw [run, dif_pos hk, firstKeys_succ k hk]
    exact inv_step x y v X Y BX BY V hX hY hBX hBY hV r ⟨k + 1, hk⟩ (firstKeys k) (firstKeys_disjoint k hk) _
      (ih (by omega))

end Blocks

/-- After the six visits, the quotient of the running sums is the weighted average. -/
theorem run_final
    (x y : Fin 12288 → Fin 3 → ℝ) (v : Fin 12288 → Fin 16 → ℝ)
    (X Y : Fin 12288 → Fin 3 → EReal) (BX BY : Fin 12288 → EReal) (V : Fin 12288 → Fin 16 → EReal)
    (hX : ∀ r d, X r d = ((x r d * 100 : ℝ) : EReal))
    (hY : ∀ j d, Y j d = ((y j d : ℝ) : EReal))
    (hBX : ∀ r, BX r = ((-50 * ∑ d : Fin 3, x r d * x r d : ℝ) : EReal))
    (hBY : ∀ j, BY j = ((-50 * ∑ d : Fin 3, y j d * y j d : ℝ) : EReal))
    (hV : ∀ j d, V j d = ((v j d : ℝ) : EReal))
    (r : Fin 12288) (d : Fin 16) :
    Ideal.div ((run X Y BX BY V r 5).acc d) (run X Y BX BY V r 5).l
      = ((Cert.GaussConv.out x y v r d : ℝ) : EReal) := by
  obtain ⟨M, hle, ⟨j0, _, hj0⟩, hst⟩ := inv_run x y v X Y BX BY V hX hY hBX hBY hV r 5 (by norm_num)
  rw [firstKeys_five] at hle hst
  have hM : M = top x y r := by
    apply le_antisymm
    · rw [← hj0]
      exact Finset.le_sup' (logit x y r) (Finset.mem_univ j0)
    · exact Finset.sup'_le _ _ (fun j hj => hle j hj)
  rw [hM] at hst
  have hL : 0 < ∑ j : Fin 12288, Real.exp (logit x y r j - top x y r) :=
    Finset.sum_pos (fun j _ => Real.exp_pos _) ⟨(0 : Fin 12288), Finset.mem_univ _⟩
  rw [hst]
  simp only
  rw [Ideal.div_coe hL.ne', ← EReal.coe_mul]
  congr 1
  simp only [out, weight]
  rw [mul_one_div]

end Cert.GaussConv.Row

end
-- ==== Proof.Final.lean ====
/-
  The kernel's result array.

  At a tile's last visit the output block is, at (row n, feature d), the quotient of the row's weighted sum by its sum
  of weights after all six visits; the write-back at that point puts the block at rows 1024 * (t / 6) + n of the result
  array, and the twelve last-visit points' blocks fill the array.  So the result array is, at (r, d), the quotient
  acc d / l of query row r's state after the six visits over the arrays the region finds — and, where every input entry
  is a real number, the weighted average `G` of the arguments.
-/
import proofs.«180915_j66322884985174_2_alg».proof.Proof.Gen.KernelIdeal.Value
import proofs.«180915_j66322884985174_2_alg».proof.Proof.Invariant
import proofs.«180915_j66322884985174_2_alg».proof.Proof.Cover
import proofs.«180915_j66322884985174_2_alg».proof.Proof.HostV
import proofs.«180915_j66322884985174_2_alg».proof.Proof.HostArraysAt
import proofs.«180915_j66322884985174_2_alg».proof.Proof.OnlineSoftmax
import proofs.«180915_j66322884985174_2_alg».proof.Proof.Spec

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.GaussConv Cert.KernelIdeal.VisitAt Cert.KernelIdeal.Blocks Cert.KernelIdeal.Invariant

variable (m : (ℓ : Loc nD τ sig) → Buf (Elt Ideal) ℓ) (ρ : Dev nD → PrngReg)

/-- The result array in terms of the row runs: at (r, d) the quotient of row r's weighted sum by its sum of weights
    after the six visits. -/
def result (c : Dev nD) : S1x12288x16.Idx → EReal := fun i =>
  Ideal.div ((Row.run (X m c) (Y m c) (BX m c) (BY m c) (Vf m c) (i 1) 5).acc (i 2))
    (Row.run (X m c) (Y m c) (BX m c) (BY m c) (Vf m c) (i 1) 5).l

/-- At a last visit the output block is the quotient of what the visit leaves in the weighted-sum buffer by what it
    leaves in the sum-of-weights buffer. -/
theorem out_block (c : Dev nD) (t : Fin cfg0.N) (h0 : ¬t.val % 6 = 0) (h1 : t.val % 6 = 5) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
      = k0_pay4 (outsAt0 m c t.val t.isLt).2.2.2 (outsAt0 m c t.val t.isLt).2.2.1 := by
  rw [Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [outsAt0_C m c t h0 h1]
  dsimp only
  rw [Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [Pieces.l_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- Where the output block's entry (p, n, d) sits in the result array. -/
theorem out_emb (t : Fin cfg0.N) (p : Fin 1) (n : Fin 1024) (d : Fin 16) :
    ((cfg0.win 5).blk t).view.emb (ix3 p n d) = ix3 (0 : Fin 1) (row (t.val / 6) (tile_lt t) n) d := by
  funext a
  apply Fin.ext
  have h := idx_facts t
  have hp := p.isLt
  match a with
  | ⟨0, _⟩ => show win0_5.index t (0 : Fin 3) * 1 + 1 * p.val = 0; omega
  | ⟨1, _⟩ => show win0_5.index t (1 : Fin 3) * 1024 + 1 * n.val = 1024 * (t.val / 6) + n.val; omega
  | ⟨2, _⟩ => show win0_5.index t (2 : Fin 3) * 16 + 1 * d.val = d.val; omega

/-- The output block at a last visit, entry by entry, is the result's entry at its place in the array. -/
theorem block_entry (c : Dev nD) (t : Fin cfg0.N) (h1 : t.val % 6 = 5) (p : Fin 1) (n : Fin 1024) (d : Fin 16) :
    k0_pay4 (outsAt0 m c t.val t.isLt).2.2.2 (outsAt0 m c t.val t.isLt).2.2.1 (ix3 p n d)
      = result m c (((cfg0.win 5).blk t).view.emb (ix3 p n d)) := by
  obtain rfl : p = 0 := Subsingleton.elim _ _
  rw [quot_at, out_emb t 0 n d]
  have hc := carried m c t.val t.isLt n
  rw [h1] at hc
  show Ideal.div ((stateAt (outsAt0 m c t.val t.isLt).2.1 (outsAt0 m c t.val t.isLt).2.2.1 (outsAt0 m c t.val t.isLt).2.2.2 n).acc d)
      (stateAt (outsAt0 m c t.val t.isLt).2.1 (outsAt0 m c t.val t.isLt).2.2.1 (outsAt0 m c t.val t.isLt).2.2.2 n).l = _
  rw [hc]
  rfl

/-- What a last-visit point writes back is its block of the result. -/
theorem flushed_eq (c : Dev nD) (t : Fin cfg0.N) (hf : (cfg0.win 5).flush t = true) :
    (dats m 0 c).flushed 5 t = ((cfg0.win 5).blk t).view.read (Elt Ideal) (result m c) := by
  have h1 : t.val % 6 = 5 := (flush0_5 t).mp hf
  have h0 : ¬t.val % 6 = 0 := by omega
  rw [Cert.KernelIdeal.Value.flushed5_C m c t h0 h1, out_block m c t h0 h1]
  funext j
  have hj := eq_ix3 j
  rw [hj]
  exact block_entry m c t h1 (j 0) (j 1) (j 2)

/-- The result array after the run. -/
theorem final (c : Dev nD) : (dats m 0 c).arrAt 5 cfg0.N = result m c :=
  (dats m 0 c).arrAt_eq_of_cover 5 (result m c) (flushed_eq m c) Cert.KernelIdeal.Cover.cover5

/-- Where every input entry is a real number, the result is the weighted average of the arguments: the arrays the region
    finds are the scaled queries, the keys, the two bias arrays and the features of the arguments' real parts, and the
    six visits of a row end at the weighted sums and the sum of weights relative to the row's largest logit. -/
theorem result_eq_G (c : Dev nD)
    (h0 : ∀ i, m ((c : Thread nD τ).loc main_arg0) i = (((m ((c : Thread nD τ).loc main_arg0) i).toReal : ℝ) : EReal))
    (h1 : ∀ i, m ((c : Thread nD τ).loc main_arg1) i = (((m ((c : Thread nD τ).loc main_arg1) i).toReal : ℝ) : EReal))
    (h2 : ∀ i, m ((c : Thread nD τ).loc main_arg2) i = (((m ((c : Thread nD τ).loc main_arg2) i).toReal : ℝ) : EReal)) :
    result m c = G (m ((c : Thread nD τ).loc main_arg0)) (m ((c : Thread nD τ).loc main_arg1)) (m ((c : Thread nD τ).loc main_arg2)) := by
  funext i
  exact Row.run_final (re (m ((c : Thread nD τ).loc main_arg0))) (re (m ((c : Thread nD τ).loc main_arg1)))
    (re (m ((c : Thread nD τ).loc main_arg2))) (X m c) (Y m c) (BX m c) (BY m c) (Vf m c)
    (fun r d => (congrFun (Cert.KernelIdeal.HostV.V_scaled m c) (ix3 (0 : Fin 1) r d)).trans
      (Cert.KernelIdeal.HostArraysAt.scaled_apply (m ((c : Thread nD τ).loc main_arg0)) h0 r d))
    (fun j d => (congrFun (V_main_arg1 m c) (ix3 (0 : Fin 1) j d)).trans (h1 _))
    (fun r => (congrFun (Cert.KernelIdeal.HostV.V_biasCol m c) (ix3 (0 : Fin 1) r (0 : Fin 1))).trans
      (Cert.KernelIdeal.HostArraysAt.biasCol_apply (m ((c : Thread nD τ).loc main_arg0)) h0 r 0))
    (fun j => (congrFun (Cert.KernelIdeal.HostV.V_biasRow m c) (ix3 (0 : Fin 1) (0 : Fin 1) j)).trans
      (Cert.KernelIdeal.HostArraysAt.biasRow_apply (m ((c : Thread nD τ).loc main_arg1)) h1 0 j))
    (fun j d => (congrFun (V_main_arg2 m c) (ix3 (0 : Fin 1) j d)).trans (h2 _))
    (i 1) (i 2)

/-- The kernel's run where every input entry is a real number: the result array ends at the weighted average of the
    arguments, the arguments unchanged. -/
theorem run
    (hfin : ∀ c : Dev nD,
      (∀ i, m ((c : Thread nD τ).loc main_arg0) i = (((m ((c : Thread nD τ).loc main_arg0) i).toReal : ℝ) : EReal))
      ∧ (∀ i, m ((c : Thread nD τ).loc main_arg1) i = (((m ((c : Thread nD τ).loc main_arg1) i).toReal : ℝ) : EReal))
      ∧ (∀ i, m ((c : Thread nD τ).loc main_arg2) i = (((m ((c : Thread nD τ).loc main_arg2) i).toReal : ℝ) : EReal))) :
    θ_run defs (onTc (τ := τ) (main (F := Ideal))) ⟨m, fun _ => 0, ρ⟩ fun r => ∀ c : Dev nD,
      r.2.mem ((c : Thread nD τ).loc main_v13)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((final m c).trans (result_eq_G m c (hfin c).1 (hfin c).2.1 (hfin c).2.2)), (h c).2⟩)
    (Cert.KernelIdeal.Value.run_blocks m ρ)

end Cert.KernelIdeal.Final

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.RefValue.lean ====
/-
  The reference program computes the normalized Gaussian-kernel average.

  Read one operation at a time, where every input entry is a real number: the squared norms plus minus twice the inner
  product, negated and multiplied by 50, is the logit -50 |x_r - y_j|^2; the row maximum from -infinity is the largest
  logit; the exponential of the difference is the weight; the quotient by the row's sum of weights, contracted with the
  key features, is the weighted average.  Every intermediate value is then a real number, so the extended-real
  operations are the real ones.
-/
import proofs.«180915_j66322884985174_2_alg».proof.Proof.Gen.ReferenceIdeal.Read
import proofs.«180915_j66322884985174_2_alg».proof.Proof.Spec
import proofs.«180915_j66322884985174_2_alg».proof.Proof.LibRows

noncomputable section

namespace Cert.GaussConv.Ref

open Cert.ReferenceIdeal Cert.ReferenceIdeal.Gen Cert.ReferenceIdeal.Read Idealize.ShloMosaic Idealize.ShloMosaic.ValueIdx

/-! ## The literals -/

/-- The word of `0.0` denotes 0. -/
theorem ofBits_zero : Ideal.ofBits .f32 0x00000000#32 = 0 := by
  simp [Ideal.ofBits, Ideal.ieee]

/-- The word of `2.0` denotes the real 2. -/
theorem ofBits_two : Ideal.ofBits .f32 0x40000000#32 = ((2 : ℝ) : EReal) := by
  simp [Ideal.ofBits, Ideal.ieee, -EReal.coe_mul]; norm_num

/-- The word of `50.0` denotes the real 50. -/
theorem ofBits_fifty : Ideal.ofBits .f32 0x42480000#32 = ((50 : ℝ) : EReal) := by
  simp [Ideal.ofBits, Ideal.ieee, -EReal.coe_mul]; norm_num

/-- The word 0xFF800000 denotes -infinity. -/
theorem ofBits_neg_inf : Ideal.ofBits .f32 0xFF800000#32 = (⊥ : EReal) := by
  simp [Ideal.ofBits, Ideal.ieee]

/-! ## Real numbers inside the extended reals -/

/-- The inclusion of the reals commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-! ## The logits -/

/-- In real numbers: squared norms minus twice the inner product, negated, times 50. -/
theorem logit_real (a b : Fin 3 → ℝ) :
    -((0 + ∑ k : Fin 3, a k * a k) + (0 + ∑ k : Fin 3, b k * b k) - 2 * ∑ k : Fin 3, a k * b k) * 50
      = -50 * ∑ d : Fin 3, (a d - b d) ^ 2 := by
  simp only [Fin.sum_univ_three]
  ring

/-- Operation 15 at `(0, r, j)` is the logit of query `r` against key `j`. -/
theorem logit_apply (x0 x1 : (⟨S1x12288x3, .f32⟩ : BufTy).Contents (Elt Ideal))
    (h0 : ∀ i, x0 i = (((x0 i).toReal : ℝ) : EReal)) (h1 : ∀ i, x1 i = (((x1 i).toReal : ℝ) : EReal))
    (r j : Fin 12288) :
    val_main_v15 (F := Ideal) x0 x1 (ix3 (0 : Fin 1) r j) = ((logit (re x0) (re x1) r j : ℝ) : EReal) := by
  have e1 : ∀ k : Fin 3, idx_main_v1 (idx_main_v5 (idx_main_v7 (ix3 (0 : Fin 1) r j))) k = ix3 (0 : Fin 1) r k :=
    fun k => funext fun a => Fin.ext (by match a with | ⟨0, _⟩ => rfl | ⟨1, _⟩ => rfl | ⟨2, _⟩ => rfl)
  have e3 : ∀ k : Fin 3, idx_main_v3 (idx_main_v6 (idx_main_v8 (ix3 (0 : Fin 1) r j))) k = ix3 (0 : Fin 1) j k :=
    fun k => funext fun a => Fin.ext (by match a with | ⟨0, _⟩ => rfl | ⟨1, _⟩ => rfl | ⟨2, _⟩ => rfl)
  have el : ∀ k : Fin 3, lidx_main_v4 (ix3 (0 : Fin 1) r j) k = ix3 (0 : Fin 1) r k :=
    fun k => funext fun a => Fin.ext (by match a with | ⟨0, _⟩ => rfl | ⟨1, _⟩ => rfl | ⟨2, _⟩ => rfl)
  have er : ∀ k : Fin 3, ridx_main_v4 (ix3 (0 : Fin 1) r j) k = ix3 (0 : Fin 1) j k :=
    fun k => funext fun a => Fin.ext (by match a with | ⟨0, _⟩ => rfl | ⟨1, _⟩ => rfl | ⟨2, _⟩ => rfl)
  rw [val_main_v15_apply, val_main_v13_apply, val_main_v12_apply, val_main_v9_apply, val_main_v7_apply,
    val_main_v5_apply, val_main_v1_apply, val_main_v8_apply, val_main_v6_apply, val_main_v3_apply,
    val_main_v11_apply, val_main_v10_apply, val_main_v4_apply, val_main_v14_apply]
  simp only [val_main_v0_apply, val_main_v2_apply, val_main_cst_apply, val_main_cst_0_apply, val_main_cst_1_apply,
    val_main_cst_2_apply, e1, e3, el, er, Ideal.ofBits_def, Ideal.mulf_def, Ideal.addf_def, Ideal.subf_def,
    Ideal.hostNegf_def, Ideal.negf_def, ofBits_zero, ofBits_two, ofBits_fifty]
  have a0 : ∀ k : Fin 3, x0 (ix3 (0 : Fin 1) r k) = ((re x0 r k : ℝ) : EReal) := fun k => h0 _
  have a1 : ∀ k : Fin 3, x1 (ix3 (0 : Fin 1) j k) = ((re x1 j k : ℝ) : EReal) := fun k => h1 _
  simp only [a0, a1]
  unfold logit
  rw [← logit_real (re x0 r) (re x1 j)]
  simp only [coe_sum, EReal.coe_add, EReal.coe_mul, EReal.coe_neg, EReal.coe_sub, EReal.coe_zero]

/-! ## The row maximum -/

/-- The fold of `max` from -infinity over finitely many real numbers, at least one, is the largest of them. -/
theorem fold_max_coe {ι : Type*} (s : Finset ι) (H : s.Nonempty) (f : ι → ℝ) :
    s.fold max (⊥ : EReal) (fun i => ((f i : ℝ) : EReal)) = ((s.sup' H f : ℝ) : EReal) := by
  refine le_antisymm ?_ ?_
  · rw [Finset.fold_max_le]
    exact ⟨bot_le, fun i hi => EReal.coe_le_coe_iff.mpr (Finset.le_sup' f hi)⟩
  · obtain ⟨i, hi, e⟩ := Finset.exists_mem_eq_sup' H f
    rw [Finset.le_fold_max]
    exact Or.inr ⟨i, hi, by rw [e]⟩

/-- Operation 18 at `(0, r)`, the maximum of -infinity and the row's maximum from -infinity, is the largest logit of
    row `r`. -/
theorem top_apply (x0 x1 : (⟨S1x12288x3, .f32⟩ : BufTy).Contents (Elt Ideal))
    (h0 : ∀ i, x0 i = (((x0 i).toReal : ℝ) : EReal)) (h1 : ∀ i, x1 i = (((x1 i).toReal : ℝ) : EReal))
    (r : Fin 12288) :
    val_main_v18 (F := Ideal) x0 x1 (ix2 (0 : Fin 1) r) = ((top (re x0) (re x1) r : ℝ) : EReal) := by
  rw [val_main_v18_apply, val_main_v17_apply, val_main_cst_4_apply]
  unfold val_main_v16
  rw [hostLastMax_apply (val_main_v15 (F := Ideal) x0 x1) (val_main_cst_3 (F := Ideal))
    reducesTo_S1x12288x12288_S1x12288_d2 (by decide) h_S_ (0 : Fin 1) r]
  simp only [val_main_cst_3_apply, Ideal.ofBits_def, Ideal.maximumf_def, ofBits_neg_inf, logit_apply x0 x1 h0 h1]
  rw [max_eq_right bot_le]
  exact fold_max_coe _ _ _

/-! ## The weights, their sum, and the quotient -/

/-- Operation 22 at `(0, r, j)` is the weight of key `j` for query `r`. -/
theorem weight_apply (x0 x1 : (⟨S1x12288x3, .f32⟩ : BufTy).Contents (Elt Ideal))
    (h0 : ∀ i, x0 i = (((x0 i).toReal : ℝ) : EReal)) (h1 : ∀ i, x1 i = (((x1 i).toReal : ℝ) : EReal))
    (r j : Fin 12288) :
    val_main_v22 (F := Ideal) x0 x1 (ix3 (0 : Fin 1) r j) = ((weight (re x0) (re x1) r j : ℝ) : EReal) := by
  have e : idx_main_v19 (idx_main_v20 (ix3 (0 : Fin 1) r j)) = ix2 (0 : Fin 1) r :=
    funext fun a => Fin.ext (by match a with | ⟨0, _⟩ => rfl | ⟨1, _⟩ => rfl)
  rw [val_main_v22_apply, val_main_v21_apply, val_main_v20_apply, val_main_v19_apply, e, top_apply x0 x1 h0 h1,
    logit_apply x0 x1 h0 h1]
  simp only [Ideal.hostUnary_exp_def, Ideal.subf_def]
  rw [← EReal.coe_sub, Ideal.exp_coe]
  rfl

/-- Operation 23 at `(0, r)` is the sum of the weights of row `r`. -/
theorem weightSum_apply (x0 x1 : (⟨S1x12288x3, .f32⟩ : BufTy).Contents (Elt Ideal))
    (h0 : ∀ i, x0 i = (((x0 i).toReal : ℝ) : EReal)) (h1 : ∀ i, x1 i = (((x1 i).toReal : ℝ) : EReal))
    (r : Fin 12288) :
    val_main_v23 (F := Ideal) x0 x1 (ix2 (0 : Fin 1) r)
      = ((∑ j : Fin 12288, weight (re x0) (re x1) r j : ℝ) : EReal) := by
  have e : ∀ k : Fin 12288, idx_main_v23 (ix2 (0 : Fin 1) r) k = ix3 (0 : Fin 1) r k :=
    fun k => funext fun a => Fin.ext (by match a with | ⟨0, _⟩ => rfl | ⟨1, _⟩ => rfl | ⟨2, _⟩ => rfl)
  rw [val_main_v23_apply, val_main_cst_5_apply]
  simp only [e, weight_apply x0 x1 h0 h1, Ideal.ofBits_def, ofBits_zero, zero_add]
  rw [coe_sum]

/-- A row's sum of weights is positive: every weight is an exponential. -/
theorem weightSum_pos (x y : Fin 12288 → Fin 3 → ℝ) (r : Fin 12288) : 0 < ∑ j : Fin 12288, weight x y r j :=
  Finset.sum_pos (fun j _ => Real.exp_pos _) ⟨0, Finset.mem_univ _⟩

/-- Operation 26 at `(0, r, j)` is the weight divided by the row's sum of weights. -/
theorem quot_apply (x0 x1 : (⟨S1x12288x3, .f32⟩ : BufTy).Contents (Elt Ideal))
    (h0 : ∀ i, x0 i = (((x0 i).toReal : ℝ) : EReal)) (h1 : ∀ i, x1 i = (((x1 i).toReal : ℝ) : EReal))
    (r j : Fin 12288) :
    val_main_v26 (F := Ideal) x0 x1 (ix3 (0 : Fin 1) r j)
      = ((weight (re x0) (re x1) r j * (1 / ∑ k : Fin 12288, weight (re x0) (re x1) r k) : ℝ) : EReal) := by
  have e : idx_main_v24 (idx_main_v25 (ix3 (0 : Fin 1) r j)) = ix2 (0 : Fin 1) r :=
    funext fun a => Fin.ext (by match a with | ⟨0, _⟩ => rfl | ⟨1, _⟩ => rfl)
  rw [val_main_v26_apply, val_main_v25_apply, val_main_v24_apply, e, weightSum_apply x0 x1 h0 h1,
    weight_apply x0 x1 h0 h1]
  simp only [Ideal.hostDivf_def]
  rw [Ideal.div_coe (ne_of_gt (weightSum_pos _ _ r)), ← EReal.coe_mul]

/-! ## The result -/

/-- Where every input entry is a real number, the reference program's result is the normalized Gaussian-kernel
    average. -/
theorem ref_eq_G (x0 x1 : (⟨S1x12288x3, .f32⟩ : BufTy).Contents (Elt Ideal))
    (x2 : (⟨S1x12288x16, .f32⟩ : BufTy).Contents (Elt Ideal))
    (h0 : ∀ i, x0 i = (((x0 i).toReal : ℝ) : EReal)) (h1 : ∀ i, x1 i = (((x1 i).toReal : ℝ) : EReal))
    (h2 : ∀ i, x2 i = (((x2 i).toReal : ℝ) : EReal)) :
    Cert.ReferenceIdeal.Read.val_main_v27 (F := Ideal) x0 x1 x2 = Cert.GaussConv.G x0 x1 x2 := by
  funext i
  obtain ⟨p, r, d, rfl⟩ : ∃ (p : Fin 1) (r : Fin 12288) (d : Fin 16), i = ix3 p r d := ⟨i 0, i 1, i 2, eq_ix3 i⟩
  obtain rfl : p = 0 := Subsingleton.elim _ _
  have el : ∀ k : Fin 12288, lidx_main_v27 (ix3 (0 : Fin 1) r d) k = ix3 (0 : Fin 1) r k :=
    fun k => funext fun a => Fin.ext (by match a with | ⟨0, _⟩ => rfl | ⟨1, _⟩ => rfl | ⟨2, _⟩ => rfl)
  have er : ∀ k : Fin 12288, ridx_main_v27 (ix3 (0 : Fin 1) r d) k = ix3 (0 : Fin 1) k d :=
    fun k => funext fun a => Fin.ext (by match a with | ⟨0, _⟩ => rfl | ⟨1, _⟩ => rfl | ⟨2, _⟩ => rfl)
  have a2 : ∀ k : Fin 12288, x2 (ix3 (0 : Fin 1) k d) = ((re x2 k d : ℝ) : EReal) := fun k => h2 _
  rw [val_main_v27_apply]
  simp only [el, er, quot_apply x0 x1 h0 h1, a2, ← EReal.coe_mul]
  rw [← coe_sum]
  show _ = ((out (re x0) (re x1) (re x2) r d : ℝ) : EReal)
  refine congrArg _ ?_
  unfold out
  rw [Finset.sum_div]
  exact Finset.sum_congr rfl fun k _ => by ring

end Cert.GaussConv.Ref

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  The precondition "every input entry is finite" gives real numbers.

  The printed predicate compares the absolute value of every entry of each of the three arrays with +infinity, reduces
  each array of comparison bits by `and`, and joins the three results by `and`.  Where the result is 1, every
  comparison bit is 1; an extended real whose absolute value is below +infinity is a real number, so it is the
  inclusion of its real part.
-/
import proofs.«180915_j66322884985174_2_alg».proof.Pre_finite_inputs
import proofs.«180915_j66322884985174_2_alg».proof.Proof.LibSums
import Idealize.ShloMosaic.Lib.ReduceAll
import Idealize.ShloMosaic.Lib.ValueIdx

noncomputable section

namespace Cert.GaussConv.Fin

open Idealize.ShloMosaic Idealize.ShloMosaic.ValueIdx

/-- The scalar shape has one index. -/
instance : Subsingleton (⟨0, ![]⟩ : Shape).Idx := ⟨fun a b => funext fun d => d.elim0⟩

/-- One array: where the reduction by `and` of the bits "absolute value below the word of +infinity" is 1, every
    entry is the inclusion of its real part. -/
theorem real_of_all {S : Shape} {axes : List (Fin S.rank)} (x : FVec Ideal S .f32)
    (hb : (⟨0, ![]⟩ : Shape).BroadcastsInDim S (![] : Fin 0 → Fin S.rank)) (h : S.ReducesTo axes ⟨0, ![]⟩)
    (hu : 0 < (⟨0, ![]⟩ : Shape).numel)
    (e : Host.reduce IntOp.andi
        (cmpf .olt (Host.absf x) (broadcastInDim S ![] hb (constant (F := Ideal) ⟨0, ![]⟩ .f32 0x7F800000#32)))
        (constantI ⟨0, ![]⟩ 1 1#1) h hu ix0 = 1#1)
    (i : S.Idx) : x i = (((x i).toReal : ℝ) : EReal) := by
  have hi := Host.reduce_andi_all _ _ h hu ix0 e i
  obtain ⟨r, hr⟩ := Cert.LibSums.real_of_finite_bit (x i) hi
  rw [hr, EReal.toReal_coe]

/-- Where the precondition holds, every entry of the three arrays is the inclusion of its real part. -/
theorem real_of_pre [Cert.Pre_finite_inputs.Facts] (x0 x1 : FVec Ideal Cert.Pre_finite_inputs.S1x12288x3 .f32)
    (x2 : FVec Ideal Cert.Pre_finite_inputs.S1x12288x16 .f32)
    (h : Cert.Pre_finite_inputs.fn (F := Ideal) x0 x1 x2 = fun _ => 1#1) :
    (∀ i, x0 i = (((x0 i).toReal : ℝ) : EReal)) ∧ (∀ i, x1 i = (((x1 i).toReal : ℝ) : EReal))
      ∧ (∀ i, x2 i = (((x2 i).toReal : ℝ) : EReal)) := by
  have h' := congrFun h ix0
  dsimp only [Cert.Pre_finite_inputs.fn] at h'
  obtain ⟨h8, h12⟩ := IntOp.andi_eq_one.1 h'
  obtain ⟨h3, h7⟩ := IntOp.andi_eq_one.1 h8
  exact ⟨fun i => real_of_all x0 _ _ _ h3 i, fun i => real_of_all x1 _ _ _ h7 i, fun i => real_of_all x2 _ _ _ h12 i⟩

end Cert.GaussConv.Fin

end
-- ==== Proof.lean ====
/-
  Normalized Gaussian-kernel message passing: a blockwise kernel against the direct formula.

  Both programs take query points x (12288 x 3), key points y (12288 x 3) and key features v (12288 x 16) and return,
  for every query r and feature d, the average of v j d over the keys j with weights proportional to
  exp (-50 |x_r - y_j|^2).  The reference computes the 12288 x 12288 logits -(|x_r|^2 + |y_j|^2 - 2 x_r.y_j) * 50,
  subtracts each row's largest, exponentiates, divides each row by its sum and multiplies by v.  The kernel never forms
  that matrix: the host scales the queries by 100 and forms the biases -50 |x_r|^2 and -50 |y_j|^2, and the kernel
  visits, for each tile of 1024 queries, the six blocks of 2048 keys in turn, keeping per query row the largest logit
  met so far, the sum of the weights relative to it, and the weighted feature sums, rescaling the two sums by
  exp (old largest - new largest) at each visit; after the sixth visit it divides.

  Read on the extended reals with exact operations, the two are the same function wherever every input entry is a
  real number, which is the precondition: both logit arrangements are -50 |x_r - y_j|^2 (this uses distributivity, hence
  real entries); rescaling by exp (M - M') turns sums relative to M into sums relative to M'; the running largest logit
  ends at the row's largest; and a sum of quotients by one positive number is the quotient of the sum.

  The modules: Spec (the weighted average `out` and the array function `G`), Row (one query row's visit and six-visit
  run, as the kernel computes them), OnlineSoftmax (the run's final quotient is `out`), Pieces, Dots, VisitAt, Blocks,
  Invariant, Cover, HostArrays, HostArraysAt, HostV, Final (the kernel's result array is `G` of the arguments),
  RefValue (so is the reference's), Finite (the precondition makes every entry real).
-/
import proofs.«180915_j66322884985174_2_alg».proof.Defs
import proofs.«180915_j66322884985174_2_alg».proof.Proof.Gen.Kernel
import proofs.«180915_j66322884985174_2_alg».proof.Proof.Gen.Kernel.Skeleton
import proofs.«180915_j66322884985174_2_alg».proof.Proof.Gen.Kernel.Launch
import proofs.«180915_j66322884985174_2_alg».proof.Proof.Gen.Kernel.Points
import proofs.«180915_j66322884985174_2_alg».proof.Proof.Gen.Kernel.Frame
import proofs.«180915_j66322884985174_2_alg».proof.Proof.Gen.KernelIdeal
import proofs.«180915_j66322884985174_2_alg».proof.Proof.Gen.KernelIdeal.Skeleton
import proofs.«180915_j66322884985174_2_alg».proof.Proof.Gen.KernelIdeal.Launch
import proofs.«180915_j66322884985174_2_alg».proof.Proof.Gen.KernelIdeal.Points
import proofs.«180915_j66322884985174_2_alg».proof.Proof.Gen.KernelIdeal.Frame
import proofs.«180915_j66322884985174_2_alg».proof.Proof.Gen.ReferenceIdeal
import proofs.«180915_j66322884985174_2_alg».proof.Proof.Gen.Pre_finite_inputs
import proofs.«180915_j66322884985174_2_alg».proof.Proof.Gen.KernelIdeal.Value
import proofs.«180915_j66322884985174_2_alg».proof.Proof.Gen.ReferenceIdeal.Run
import proofs.«180915_j66322884985174_2_alg».proof.Proof.Gen.ReferenceIdeal.Read
import proofs.«180915_j66322884985174_2_alg».proof.Proof.Final
import proofs.«180915_j66322884985174_2_alg».proof.Proof.RefValue
import proofs.«180915_j66322884985174_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories agreeing on the three arguments, whose entries the precondition makes real
    numbers, both programs end with the weighted average `G` of the arguments as their result. -/
theorem algebraic : Cert.algebraic_KernelIdeal_ReferenceIdeal := by
  intro m ρ m' ρ' hpre hagree
  have hfin := fun c : Dev Cert.KernelIdeal.nD => Cert.GaussConv.Fin.real_of_pre _ _ _ (hpre c)
  refine ⟨fun c => Cert.GaussConv.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2]
  exact Cert.GaussConv.Ref.ref_eq_G _ _ _ (hfin c).1 (hfin c).2.1 (hfin c).2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
